-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x5 : Shape := ⟨2, ![131072, 5]⟩
abbrev S_ : Shape := ⟨0, ![]⟩

class Facts : Prop where
  bcast_S_S131072x5 : S_.BroadcastsInDim S131072x5 (![] : Fin 0 → Fin S131072x5.rank)
  reducesTo_S131072x5_S_d0_1 : S131072x5.ReducesTo [0, 1] S_
  h_S_ : 0 < S_.numel

variable [Facts]

def fn_part1 {F : FTy → Type} [FloatOps F] (main_v13 : IVec S_ 1) (main_v16 : IVec S131072x5 1) : IVec S_ 1 :=
  let main_c_5 : IVec S_ 1 := constantI S_ 1 1#1
  let main_v17 : IVec S_ 1 := (fun x v => Host.reduce IntOp.andi x v reducesTo_S131072x5_S_d0_1 h_S_) main_v16 main_c_5
  let main_v18 : IVec S_ 1 := andi main_v13 main_v17
  main_v18

def fn {F : FTy → Type} [FloatOps F] (main_arg0 : FVec F S131072x5 .f32) (main_arg1 : FVec F S131072x5 .f32) (main_arg2 : FVec F S131072x5 .f32) (main_arg3 : FVec F S131072x5 .f32) : IVec S_ 1 :=
  let main_v0 : FVec F S131072x5 .f32 := Host.absf main_arg0
  let main_cst : FVec F S_ .f32 := constant S_ .f32 0x7F800000#32
  let main_v1 : FVec F S131072x5 .f32 := broadcastInDim S131072x5 ![] bcast_S_S131072x5 main_cst
  let main_v2 : IVec S131072x5 1 := cmpf .olt main_v0 main_v1
  let main_c : IVec S_ 1 := constantI S_ 1 1#1
  let main_v3 : IVec S_ 1 := (fun x v => Host.reduce IntOp.andi x v reducesTo_S131072x5_S_d0_1 h_S_) main_v2 main_c
  let main_v4 : FVec F S131072x5 .f32 := Host.absf main_arg1
  let main_cst_0 : FVec F S_ .f32 := constant S_ .f32 0x7F800000#32
  let main_v5 : FVec F S131072x5 .f32 := broadcastInDim S131072x5 ![] bcast_S_S131072x5 main_cst_0
  let main_v6 : IVec S131072x5 1 := cmpf .olt main_v4 main_v5
  let main_c_1 : IVec S_ 1 := constantI S_ 1 1#1
  let main_v7 : IVec S_ 1 := (fun x v => Host.reduce IntOp.andi x v reducesTo_S131072x5_S_d0_1 h_S_) main_v6 main_c_1
  let main_v8 : IVec S_ 1 := andi main_v3 main_v7
  let main_v9 : FVec F S131072x5 .f32 := Host.absf main_arg2
  let main_cst_2 : FVec F S_ .f32 := constant S_ .f32 0x7F800000#32
  let main_v10 : FVec F S131072x5 .f32 := broadcastInDim S131072x5 ![] bcast_S_S131072x5 main_cst_2
  let main_v11 : IVec S131072x5 1 := cmpf .olt main_v9 main_v10
  let main_c_3 : IVec S_ 1 := constantI S_ 1 1#1
  let main_v12 : IVec S_ 1 := (fun x v => Host.reduce IntOp.andi x v reducesTo_S131072x5_S_d0_1 h_S_) main_v11 main_c_3
  let main_v13 : IVec S_ 1 := andi main_v8 main_v12
  let main_v14 : FVec F S131072x5 .f32 := Host.absf main_arg3
  let main_cst_4 : FVec F S_ .f32 := constant S_ .f32 0x7F800000#32
  let main_v15 : FVec F S131072x5 .f32 := broadcastInDim S131072x5 ![] bcast_S_S131072x5 main_cst_4
  let main_v16 : IVec S131072x5 1 := cmpf .olt main_v14 main_v15
  fn_part1 (F := F) main_v13 main_v16
-- ==== Kernel.lean ====
abbrev S131072x5 : Shape := ⟨2, ![131072, 5]⟩
abbrev S1x131072x5 : Shape := ⟨3, ![1, 131072, 5]⟩
abbrev S4x131072x5 : Shape := ⟨3, ![4, 131072, 5]⟩
abbrev S4x5x131072 : Shape := ⟨3, ![4, 5, 131072]⟩
abbrev S1x5x131072 : Shape := ⟨3, ![1, 5, 131072]⟩
abbrev S5x131072 : Shape := ⟨2, ![5, 131072]⟩
abbrev S2x1x1 : Shape := ⟨3, ![2, 1, 1]⟩
abbrev S5x32768 : Shape := ⟨2, ![5, 32768]⟩
abbrev S1x1x1 : Shape := ⟨3, ![1, 1, 1]⟩
abbrev S1x1 : Shape := ⟨2, ![1, 1]⟩
abbrev S1x32768 : Shape := ⟨2, ![1, 32768]⟩
abbrev S32768 : Shape := ⟨1, ![32768]⟩
abbrev S1 : Shape := ⟨1, ![1]⟩
abbrev S_ : Shape := ⟨0, ![]⟩

abbrev nBuf : Space → Nat
  | .hbm => 23
  | .vmem => 11
  | .smem => 0
  | _ => 0

abbrev bufTy : (tb : Table) → Fin (tcTables nBuf tb) → BufTy
  | .hbm, ⟨0, _⟩ => ⟨S131072x5, .f32⟩
  | .hbm, ⟨1, _⟩ => ⟨S131072x5, .f32⟩
  | .hbm, ⟨2, _⟩ => ⟨S131072x5, .f32⟩
  | .hbm, ⟨3, _⟩ => ⟨S131072x5, .f32⟩
  | .hbm, ⟨4, _⟩ => ⟨S1x131072x5, .f32⟩
  | .hbm, ⟨5, _⟩ => ⟨S1x131072x5, .f32⟩
  | .hbm, ⟨6, _⟩ => ⟨S1x131072x5, .f32⟩
  | .hbm, ⟨7, _⟩ => ⟨S1x131072x5, .f32⟩
  | .hbm, ⟨8, _⟩ => ⟨S4x131072x5, .f32⟩
  | .hbm, ⟨9, _⟩ => ⟨S4x5x131072, .f32⟩
  | .hbm, ⟨10, _⟩ => ⟨S1x5x131072, .f32⟩
  | .hbm, ⟨11, _⟩ => ⟨S5x131072, .f32⟩
  | .hbm, ⟨12, _⟩ => ⟨S1x5x131072, .f32⟩
  | .hbm, ⟨13, _⟩ => ⟨S5x131072, .f32⟩
  | .hbm, ⟨14, _⟩ => ⟨S1x5x131072, .f32⟩
  | .hbm, ⟨15, _⟩ => ⟨S5x131072, .f32⟩
  | .hbm, ⟨16, _⟩ => ⟨S1x5x131072, .f32⟩
  | .hbm, ⟨17, _⟩ => ⟨S5x131072, .f32⟩
  | .hbm, ⟨18, _⟩ => ⟨S2x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S5x32768, .f32⟩
  | .local _ .vmem, ⟨1, _⟩ => ⟨S5x32768, .f32⟩
  | .local _ .vmem, ⟨2, _⟩ => ⟨S5x32768, .f32⟩
  | .local _ .vmem, ⟨3, _⟩ => ⟨S5x32768, .f32⟩
  | .local _ .vmem, ⟨4, _⟩ => ⟨S5x32768, .f32⟩
  | .local _ .vmem, ⟨5, _⟩ => ⟨S5x32768, .f32⟩
  | .local _ .vmem, ⟨6, _⟩ => ⟨S5x32768, .f32⟩
  | .local _ .vmem, ⟨7, _⟩ => ⟨S5x32768, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S131072x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S131072x5_S1x131072x5_1_2 : S131072x5.BroadcastsInDim S1x131072x5 (![1, 2] : Fin 2 → Fin S1x131072x5.rank)
  concatenates_S1x131072x5_S1x131072x5_S1x131072x5_S1x131072x5_S4x131072x5_d0 : Shape.Concatenates [S1x131072x5, S1x131072x5, S1x131072x5, S1x131072x5] S4x131072x5 0
  transposes_S4x131072x5_S4x5x131072_0_2_1 : S4x131072x5.Transposes [0, 2, 1] S4x5x131072
  slices_S4x5x131072_S1x5x131072_0_0_0 : S4x5x131072.Slices ![0, 0, 0] S1x5x131072
  shapeCasts_S1x5x131072_S5x131072 : S1x5x131072.ShapeCasts S5x131072
  slices_S4x5x131072_S1x5x131072_1_0_0 : S4x5x131072.Slices ![1, 0, 0] S1x5x131072
  slices_S4x5x131072_S1x5x131072_2_0_0 : S4x5x131072.Slices ![2, 0, 0] S1x5x131072
  slices_S4x5x131072_S1x5x131072_3_0_0 : S4x5x131072.Slices ![3, 0, 0] S1x5x131072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5x32768_S1x32768_0_0 : ∀ a, (![0, 0] : Fin 2 → Nat) a + S1x32768.size a ≤ S5x32768.size a
  h_S1x32768 : 0 < S1x32768.numel
  shapeCasts_S1x32768_S32768 : S1x32768.ShapeCasts S32768
  inb_S5x32768_S1x32768_1_0 : ∀ a, (![1, 0] : Fin 2 → Nat) a + S1x32768.size a ≤ S5x32768.size a
  inb_S5x32768_S1x32768_2_0 : ∀ a, (![2, 0] : Fin 2 → Nat) a + S1x32768.size a ≤ S5x32768.size a
  inb_S5x32768_S1x32768_3_0 : ∀ a, (![3, 0] : Fin 2 → Nat) a + S1x32768.size a ≤ S5x32768.size a
  inb_S5x32768_S1x32768_4_0 : ∀ a, (![4, 0] : Fin 2 → Nat) a + S1x32768.size a ≤ S5x32768.size a
  shapeCasts_S32768_S1x32768 : S32768.ShapeCasts S1x32768
  reduces_S1x32768_S1 : S1x32768.Reduces [1] S1
  shapeCasts_S1_S1x1 : S1.ShapeCasts S1x1
  inpos_S1x1_p0_0 : ∀ a, (![0, 0] : Fin 2 → Nat) a < S1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x32768.size a ≤ S5x131072.size a
  hwx0_0 : ∀ i : grid0.Coords, EltTy.bits .f32 = 32 ∨ (Rect.block (s := S5x131072) S5x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x32768.size a ≤ S5x131072.size a
  hwx0_1 : ∀ i : grid0.Coords, EltTy.bits .f32 = 32 ∨ (Rect.block (s := S5x131072) S5x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x32768.size a ≤ S5x131072.size a
  hwx0_2 : ∀ i : grid0.Coords, EltTy.bits .f32 = 32 ∨ (Rect.block (s := S5x131072) S5x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x32768.size a ≤ S5x131072.size a
  hwx0_3 : ∀ i : grid0.Coords, EltTy.bits .f32 = 32 ∨ (Rect.block (s := S5x131072) S5x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_v7) S5x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x5 : Shape := ⟨2, ![131072, 5]⟩
abbrev S120x5 : Shape := ⟨2, ![120, 5]⟩
abbrev S131072x5x1 : Shape := ⟨3, ![131072, 5, 1]⟩
abbrev S131072x5x2 : Shape := ⟨3, ![131072, 5, 2]⟩
abbrev S_ : Shape := ⟨0, ![]⟩
abbrev S120x5x1 : Shape := ⟨3, ![120, 5, 1]⟩
abbrev S131072x120x5x2 : Shape := ⟨4, ![131072, 120, 5, 2]⟩
abbrev S131072x1x5x2 : Shape := ⟨4, ![131072, 1, 5, 2]⟩
abbrev S131072x120x5 : Shape := ⟨3, ![131072, 120, 5]⟩
abbrev S131072x120 : Shape := ⟨2, ![131072, 120]⟩
abbrev S131072 : Shape := ⟨1, ![131072]⟩

abbrev nBuf : Space → Nat
  | .hbm => 46
  | .vmem => 0
  | .smem => 0
  | _ => 0

abbrev bufTy : (tb : Table) → Fin (tcTables nBuf tb) → BufTy
  | .hbm, ⟨0, _⟩ => ⟨S131072x5, .f32⟩
  | .hbm, ⟨1, _⟩ => ⟨S131072x5, .f32⟩
  | .hbm, ⟨2, _⟩ => ⟨S131072x5, .f32⟩
  | .hbm, ⟨3, _⟩ => ⟨S131072x5, .f32⟩
  | .hbm, ⟨4, _⟩ => ⟨S120x5, .i32⟩
  | .hbm, ⟨5, _⟩ => ⟨S131072x5, .f32⟩
  | .hbm, ⟨6, _⟩ => ⟨S131072x5, .f32⟩
  | .hbm, ⟨7, _⟩ => ⟨S131072x5, .f32⟩
  | .hbm, ⟨8, _⟩ => ⟨S131072x5, .f32⟩
  | .hbm, ⟨9, _⟩ => ⟨S131072x5x1, .f32⟩
  | .hbm, ⟨10, _⟩ => ⟨S131072x5x1, .f32⟩
  | .hbm, ⟨11, _⟩ => ⟨S131072x5x2, .f32⟩
  | .hbm, ⟨12, _⟩ => ⟨S131072x5, .f32⟩
  | .hbm, ⟨13, _⟩ => ⟨S131072x5, .f32⟩
  | .hbm, ⟨14, _⟩ => ⟨S131072x5, .f32⟩
  | .hbm, ⟨15, _⟩ => ⟨S131072x5, .f32⟩
  | .hbm, ⟨16, _⟩ => ⟨S131072x5x1, .f32⟩
  | .hbm, ⟨17, _⟩ => ⟨S131072x5x1, .f32⟩
  | .hbm, ⟨18, _⟩ => ⟨S131072x5x2, .f32⟩
  | .hbm, ⟨19, _⟩ => ⟨S_, .i32⟩
  | .hbm, ⟨20, _⟩ => ⟨S120x5, .i32⟩
  | .hbm, ⟨21, _⟩ => ⟨S120x5, .i1⟩
  | .hbm, ⟨22, _⟩ => ⟨S_, .i32⟩
  | .hbm, ⟨23, _⟩ => ⟨S120x5, .i32⟩
  | .hbm, ⟨24, _⟩ => ⟨S120x5, .i32⟩
  | .hbm, ⟨25, _⟩ => ⟨S120x5, .i32⟩
  | .hbm, ⟨26, _⟩ => ⟨S120x5x1, .i32⟩
  | .hbm, ⟨27, _⟩ => ⟨S131072x120x5x2, .f32⟩
  | .hbm, ⟨28, _⟩ => ⟨S131072x1x5x2, .f32⟩
  | .hbm, ⟨29, _⟩ => ⟨S131072x120x5x2, .f32⟩
  | .hbm, ⟨30, _⟩ => ⟨S131072x120x5x2, .f32⟩
  | .hbm, ⟨31, _⟩ => ⟨S131072x120x5x2, .f32⟩
  | .hbm, ⟨32, _⟩ => ⟨S_, .f32⟩
  | .hbm, ⟨33, _⟩ => ⟨S131072x120x5, .f32⟩
  | .hbm, ⟨34, _⟩ => ⟨S131072x120x5, .f32⟩
  | .hbm, ⟨35, _⟩ => ⟨S_, .f32⟩
  | .hbm, ⟨36, _⟩ => ⟨S131072x120, .f32⟩
  | .hbm, ⟨37, _⟩ => ⟨S_, .f32⟩
  | .hbm, ⟨38, _⟩ => ⟨S131072x120, .f32⟩
  | .hbm, ⟨39, _⟩ => ⟨S131072x120, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S131072x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S131072x5_S131072x5x1_0_1 : S131072x5.BroadcastsInDim S131072x5x1 (![0, 1] : Fin 2 → Fin S131072x5x1.rank)
  concatenates_S131072x5x1_S131072x5x1_S131072x5x2_d2 : Shape.Concatenates [S131072x5x1, S131072x5x1] S131072x5x2 2
  bcast_S_S120x5 : S_.BroadcastsInDim S120x5 (![] : Fin 0 → Fin S120x5.rank)
  bcast_S120x5_S120x5x1_0_1 : S120x5.BroadcastsInDim S120x5x1 (![0, 1] : Fin 2 → Fin S120x5x1.rank)
  bcast_S131072x5x2_S131072x1x5x2_0_2_3 : S131072x5x2.BroadcastsInDim S131072x1x5x2 (![0, 2, 3] : Fin 3 → Fin S131072x1x5x2.rank)
  bcast_S131072x1x5x2_S131072x120x5x2_0_1_2_3 : S131072x1x5x2.BroadcastsInDim S131072x120x5x2 (![0, 1, 2, 3] : Fin 4 → Fin S131072x120x5x2.rank)
  reducesTo_S131072x120x5x2_S131072x120x5_d3 : S131072x120x5x2.ReducesTo [3] S131072x120x5
  h_S_ : 0 < S_.numel
  reducesTo_S131072x120x5_S131072x120_d2 : S131072x120x5.ReducesTo [2] S131072x120
  bcast_S_S131072x120 : S_.BroadcastsInDim S131072x120 (![] : Fin 0 → Fin S131072x120.rank)
  reducesTo_S131072x120_S131072_d1 : S131072x120.ReducesTo [1] S131072
  reducesTo_S131072_S_d0 : S131072.ReducesTo [0] S_
  gather_S131072x5x2_S120x5x1_S131072x120x5x2_03_1_n_n_1_2_13107212_wf : GatherDims.WF S131072x5x2 S120x5x1 S131072x120x5x2 [0, 3] [1] [] [1] [] 2 ![131072, 1, 2]

variable [Facts₀]

def gather_S131072x5x2_S120x5x1_S131072x120x5x2_03_1_n_n_1_2_13107212 : GatherDims S131072x5x2 S120x5x1 S131072x120x5x2 where
  offsetDims := [0, 3]
  collapsedSliceDims := [1]
  operandBatchingDims := []
  startIndicesBatchingDims := []
  startIndexMap := [1]
  indexVectorDim := 2
  sliceSizes := ![131072, 1, 2]
  wf := gather_S131072x5x2_S120x5x1_S131072x120x5x2_03_1_n_n_1_2_13107212_wf

class Facts : Prop extends Facts₀ where

variable [Facts]
-- ==== Proof.KEntryBits.lean ====
/-
  The kernel program's memory when its one pipelined region is entered, and the windows' blocks read off it.

  @main first stacks the four [131072, 5] arguments along a new leading axis, swaps the last two axes and slices the
  four [5, 131072] planes apart again (fourteen host operations); the region's four input windows are those planes, its
  output window a [2, 1, 1] array of per-core partial sums; four host operations after the region add the two cells and
  divide. V0 is a core's buffer contents after the fourteen operations, V the same read at one buffer, iblk a
  window's block at a grid point read off its array as the region finds it.
-/
import proofs.«168670_j16604343566366_2_alg».proof.Proof.Gen.Kernel.Launch
import proofs.«168670_j16604343566366_2_alg».proof.Proof.Gen.Kernel.Skeleton
import proofs.«168670_j16604343566366_2_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core c's TensorCore buffer contents when the region is entered: the launch memory after the fourteen host
    operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KBaseBits.lean ====
/-
  What the two runs of the kernel's body and the frame around them share: @main cut around its one pipelined region;
  the host lines after the region; the argument arrays, which no host line writes; the body's one branch (grid
  coordinate 1 = 0) decided over the grid; the staging memrefs the body is called with at a point; the scratch cell;
  and how a run to the pipeline library's post gives the claim that the four arguments end unchanged.
-/
import proofs.«168670_j16604343566366_2_alg».proof.Proof.KEntryBits
import Idealize.ShloMosaic.Lib.Ring

-- membership in a rectangle of the blocks' extents is checked one coordinate at a time
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the fourteen host lines before the region write: each its own result. -/
abbrev preW : List (Ref sig .tc) := [main_v0, main_v1, main_v2, main_v3, main_v4, main_v5, main_v6, main_v7, main_v8, main_v9, main_v10, main_v11, main_v12, main_v13]
/-- The buffers the four host lines after the region write. -/
abbrev postW : List (Ref sig .tc) := [main_cst, main_v15, main_cst_0, main_v16]

theorem hostOps0_writes : (hostOps0 : List (HloOp τ sig (Elt F))).Forall fun op => op.writes ⊆ (preW.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (postW.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))

/-- @main is the fourteen host lines, the region, the four host lines: it reduces to the region entered at V and
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch only the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And none writes an array of the pipeline: each writes its own result, which is none of the five. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- A buffer that no host line writes and that is no array of the pipeline ends, after the lines that follow the
    region, at its launch contents — whatever the region left in its arrays. -/
theorem tail_untouched (dats : (p : Fin 1) → (c : Dev nD) → Dat τ (Elt F) Unit ℕ (UR sig nD τ) ℕ (cfgs p) c) (c : Dev nD) (b : Ref sig .tc)
    (h0 : b ∉ preW) (h1 : b ∉ postW) (harr : ∀ w, Pipeline.arrRef spec0 w ≠ b) :
    Pipeline.afterTail₀ cfgs dats 0 (V0 m) [hostOps1] c b = m ((c : Thread nD τ).loc b) := by
  unfold Pipeline.afterTail₀
  rw [show List.flatten [(hostOps1 : List (HloOp τ sig (Elt F)))] = hostOps1 from List.append_nil _,
    StableHlo.after_of_writes_sub hostOps1 _ hostOps1_writes h1, Pipeline.withArrays_of_ne _ c _ _ b harr]
  show StableHlo.after (List.flatten [hostOps0]) (fun b => m (c, b)) (Proc.devRef .tc b) = _
  rw [show List.flatten [(hostOps0 : List (HloOp τ sig (Elt F)))] = hostOps0 from List.append_nil _,
    StableHlo.after_of_writes_sub hostOps0 _ hostOps0_writes h0]

/-! ## The input windows' blocks -/

/-- Input window 0's current staging buffer holds its block at every point (fetched at every point, never cut, never
    idle), for any proof data whose array is V's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (fetched at every point, never cut, never
    idle), for any proof data whose array is V's and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (fetched at every point, never cut, never
    idle), for any proof data whose array is V's and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (fetched at every point, never cut, never
    idle), for any proof data whose array is V's and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the pipeline library's -/

/-- A final state in the library's post has the four arguments as launched. None is an array of the pipeline, so each is
    read by the post's clause for the other unscoped buffers, and no host line writes it. -/
theorem kept_args_of (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide)).trans (tail_untouched m dats c main_arg0 (by decide) (by decide) (by decide)),
   ((h c).2 main_arg1 (by decide)).trans (tail_untouched m dats c main_arg1 (by decide) (by decide) (by decide)),
   ((h c).2 main_arg2 (by decide)).trans (tail_untouched m dats c main_arg2 (by decide) (by decide) (by decide)),
   ((h c).2 main_arg3 (by decide)).trans (tail_untouched m dats c main_arg3 (by decide) (by decide) (by decide))⟩

/-! ## The body's one branch -/

/-- The condition of the body's conditional: grid coordinate 1 is zero (the first of the two blocks of an output cell). -/
abbrev cond0_0 (i : grid0.Coords) : Prop := (Scalar.cmpi .ne (Scalar.extui (Scalar.cmpi .eq (BitVec.ofNat 32 (i 1).val) 0#32)) 0#32) = 1#1
/-- It holds at the even points of the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- No window is idle at any point. -/
theorem live (w : Fin cfg0.W) (t : Fin cfg0.N) : cfg0.idle w (grid0.coords t) = false := rfl

/-! ## The memrefs the body is called with -/

/-- One staging buffer of the output window, through which its contents are stated. -/
abbrev VO : View sig .tc .vmem S1x1x1 .f32 := (Memref.whole cc0_stg4_0 : Memref sig .tc .vmem S1x1x1 .f32).view
abbrev ms0 (t : Fin cfg0.N) : Memref sig .tc .vmem S5x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5x32768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5x32768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The scratch cell: a whole buffer of the kernel's own, carried from point to point. -/
abbrev scM : Memref sig .tc .vmem S1x1 .f32 := Memref.whole cc0_scratch0
abbrev VS : View sig .tc .vmem S1x1 .f32 := scM.view

/-- The class's region invariant with the scratch cell as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KRunABits.lean ====
/-
  The kernel's body run once, at symbolic operands, at a point where grid coordinate 1 is zero (points 0 and 2): the
  scratch cell is reset before anything reads it, so the run asks nothing of what it held. The statement is a triple on
  whole memrefs — the four input blocks at given contents, the output block and the scratch at anything — to a
  continuation that gets the inputs back as they were and the output block and the scratch with the run's stores
  written; the two lists of stores are the witnesses, found when the buffers are handed to the continuation.
-/
import proofs.«168670_j16604343566366_2_alg».proof.Proof.KBaseBits

-- membership in a rectangle of the blocks' extents is checked one coordinate at a time
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output block (L4) and the scratch (LS0), last first, where the conditional is taken,
    with the triple that produces them. -/
noncomputable def kernelRun0_A (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i)
    (x0 x1 x2 x3 : Vec F S5x32768 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRunBBits.lean ====
/-
  The kernel's body run once, at symbolic operands, at a point where grid coordinate 1 is not zero (points 1 and 3): the
  scratch cell is read before it is stored into, so it comes in at given contents — what the point before left. The
  statement is the triple of the other case with the scratch at those contents; the two lists of stores are again the
  witnesses.
-/
import proofs.«168670_j16604343566366_2_alg».proof.Proof.KRunABits

-- membership in a rectangle of the blocks' extents is checked one coordinate at a time
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output block (L4) and the scratch (LS0), last first, where the conditional is not taken,
    with the triple that produces them. -/
noncomputable def kernelRun0_B (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i)
    (x0 x1 x2 x3 : Vec F S5x32768 .f32) (xs0 : Vec F S1x1 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KFrameBits.lean ====
/-
  The frame of the kernel program. What each case of the body leaves in the output block and in the scratch cell is its
  stores read back (they cover both: one cell each); outsAt0 follows the two through the four grid points — an even
  point resets the scratch, an odd point adds to what the point before left —; the proof data hold every input window
  at its block and the output window at outsAt0's first component, the region invariant carries the scratch at the
  second; the body obligation is the case's run at every point; the pipeline library's frame run around the region gives
  the post from which the four arguments are read off unchanged.
-/
import proofs.«168670_j16604343566366_2_alg».proof.Proof.KRunBBits

-- membership in a rectangle of the blocks' extents is checked one coordinate at a time
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the conditional is taken, the stores into the output block cover it. -/
theorem cover0_A_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) (y : S1x1x1.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x1x1.size (by sl_kernel_rfl) y

/-- What that case leaves in the output block: its stores read back. -/
def out0_A_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) : Vec F S1x1x1 .f32 :=
  VO.read (Elt F) (VO.writes (Elt F) VO.junk (kernelRun0_A c i arg2 harg2 arg3 harg3 arg4 harg4 arg5 harg5 arg6 harg6 arg7 harg7 hc0 x0 x1 x2 x3).1)

/-- Its stores into the scratch cell cover it. -/
theorem scover0_A_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) (y : S1x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x1.size (by sl_kernel_rfl) y

/-- What that case leaves in the scratch cell. -/
def sout0_A_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) : Vec F S1x1 .f32 :=
  VS.read (Elt F) (VS.writes (Elt F) VS.junk (kernelRun0_A c i arg2 harg2 arg3 harg3 arg4 harg4 arg5 harg5 arg6 harg6 arg7 harg7 hc0 x0 x1 x2 x3).2.1)

/-- Where the conditional is not taken, the stores into the output block cover it. -/
theorem cover0_B_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) (y : S1x1x1.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S1x1x1.size (by sl_kernel_rfl) y

/-- What that case leaves in the output block, over the scratch contents xs0 the point before left. -/
def out0_B_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) : Vec F S1x1x1 .f32 :=
  VO.read (Elt F) (VO.writes (Elt F) VO.junk (kernelRun0_B c i arg2 harg2 arg3 harg3 arg4 harg4 arg5 harg5 arg6 harg6 arg7 harg7 hc0 x0 x1 x2 x3 xs0).1)

/-- Its stores into the scratch cell cover it. -/
theorem scover0_B_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) (y : S1x1.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S1x1.size (by sl_kernel_rfl) y

/-- What that case leaves in the scratch cell. -/
def sout0_B_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) : Vec F S1x1 .f32 :=
  VS.read (Elt F) (VS.writes (Elt F) VS.junk (kernelRun0_B c i arg2 harg2 arg3 harg3 arg4 harg4 arg5 harg5 arg6 harg6 arg7 harg7 hc0 x0 x1 x2 x3 xs0).2.1)

/-! ## Point by point -/

/-- What the output block and the scratch cell hold after the body at position n: at an even position the case that
    resets the scratch, run on the point's input blocks; at an odd one the other case, over the scratch the position
    before left. -/
def outsAt0 (c : Dev nD) : (n : ℕ) → n < cfg0.N → Vec F S1x1x1 .f32 × Vec F S1x1 .f32
  | 0, hn => (out0_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
      sout0_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
        sout0_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
        sout0_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At an even point. -/
theorem outsAt0_A (c : Dev nD) (t : Fin cfg0.N) (h0 : t.val % 2 = 0) :
    outsAt0 m c t.val t.isLt = (out0_A_4 c (grid0.coords t) (ms0 t) (hs0 t) (ms1 t) (hs1 t) (ms2 t) (hs2 t) (ms3 t) (hs3 t) (ms4 t) (hs4 t) scM (Memref.isWhole_whole _) ((hcond0_0 t).mpr h0) (iblk m c 0 t) (iblk m c 1 t) (iblk m c 2 t) (iblk m c 3 t),
      sout0_A_0 c (grid0.coords t) (ms0 t) (hs0 t) (ms1 t) (hs1 t) (ms2 t) (hs2 t) (ms3 t) (hs3 t) (ms4 t) (hs4 t) scM (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- At an odd point. -/
theorem outsAt0_B (c : Dev nD) (t : Fin cfg0.N) (h0 : ¬t.val % 2 = 0) :
    outsAt0 m c t.val t.isLt = (out0_B_4 c (grid0.coords t) (ms0 t) (hs0 t) (ms1 t) (hs1 t) (ms2 t) (hs2 t) (ms3 t) (hs3 t) (ms4 t) (hs4 t) scM (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      sout0_B_0 c (grid0.coords t) (ms0 t) (hs0 t) (ms1 t) (hs1 t) (ms2 t) (hs2 t) (ms3 t) (hs3 t) (ms4 t) (hs4 t) scM (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's (the scratch at anything); afterwards
    the scratch cell at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt0 m c (n - 1) (by omega)).2)) ∗ (∃ r, prngReg c r)) := by
  cases n with
  | zero => exact absurd rfl hz
  | succ n => rfl

/-! ## The proof data -/

/-- The proof data of the pipeline on core c: the arrays as the region finds them; after the body at point t each
    input's buffer at its block and the output's at outsAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4800000 in
/-- The body at any point: the inputs' memrefs hold their blocks; the point's parity says which case it is in; that
    case's run applies, the invariant handing it the scratch cell (at anything before the first point, at what the
    point before left afterwards) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0_0, after0_1, after0_2, after0_3, after0_4]
  have hN : t.val < 4 := lt_of_lt_of_eq t.isLt (show cfg0.N = 4 from N_0)
  by_cases h0 : t.val % 2 = 0
  · rw [outsAt0_A m c t h0]
    unfold out0_A_4 sout0_A_0; (try dsimp only)
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B m c t h0]
    unfold out0_B_4 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA_eq]
  iintro ⟨HS0, Hg⟩
  isplitl [HS0]
  · iexists _; iexact HS0
  iexact Hg

/-! ## The run and the frame -/

set_option backward.isDefEq.respectTransparency.types false in
/-- From any memory with zero counters, every weakly fair execution of @main on the TensorCores terminates, and every
    final state has each array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- A final state of that run has the four arguments as launched. -/
theorem kept_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  kept_args_of m (dats m) r h c

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.Kernel.Hand

end
-- ==== Proof.KEntry.lean ====
/-
  The kernel program's memory when its one pipelined region is entered, and the windows' blocks read off it.

  @main first stacks the four [131072, 5] arguments along a new leading axis, swaps the last two axes and slices the
  four [5, 131072] planes apart again (fourteen host operations); the region's four input windows are those planes, its
  output window a [2, 1, 1] array of per-core partial sums; four host operations after the region add the two cells and
  divide. V0 is a core's buffer contents after the fourteen operations, V the same read at one buffer, iblk a
  window's block at a grid point read off its array as the region finds it.
-/
import proofs.«168670_j16604343566366_2_alg».proof.Proof.Gen.KernelIdeal.Launch
import proofs.«168670_j16604343566366_2_alg».proof.Proof.Gen.KernelIdeal.Skeleton
import proofs.«168670_j16604343566366_2_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core c's TensorCore buffer contents when the region is entered: the launch memory after the fourteen host
    operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KBase.lean ====
/-
  What the two runs of the kernel's body and the frame around them share: @main cut around its one pipelined region;
  the host lines after the region; the argument arrays, which no host line writes; the body's one branch (grid
  coordinate 1 = 0) decided over the grid; the staging memrefs the body is called with at a point; the scratch cell;
  and how a run to the pipeline library's post gives the claim that the four arguments end unchanged.
-/
import proofs.«168670_j16604343566366_2_alg».proof.Proof.KEntry
import Idealize.ShloMosaic.Lib.Ring

-- membership in a rectangle of the blocks' extents is checked one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the fourteen host lines before the region write: each its own result. -/
abbrev preW : List (Ref sig .tc) := [main_v0, main_v1, main_v2, main_v3, main_v4, main_v5, main_v6, main_v7, main_v8, main_v9, main_v10, main_v11, main_v12, main_v13]
/-- The buffers the four host lines after the region write. -/
abbrev postW : List (Ref sig .tc) := [main_cst, main_v15, main_cst_0, main_v16]

theorem hostOps0_writes : (hostOps0 : List (HloOp τ sig (Elt F))).Forall fun op => op.writes ⊆ (preW.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (postW.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))

/-- @main is the fourteen host lines, the region, the four host lines: it reduces to the region entered at V and
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch only the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And none writes an array of the pipeline: each writes its own result, which is none of the five. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- A buffer that no host line writes and that is no array of the pipeline ends, after the lines that follow the
    region, at its launch contents — whatever the region left in its arrays. -/
theorem tail_untouched (dats : (p : Fin 1) → (c : Dev nD) → Dat τ (Elt F) Unit ℕ (UR sig nD τ) ℕ (cfgs p) c) (c : Dev nD) (b : Ref sig .tc)
    (h0 : b ∉ preW) (h1 : b ∉ postW) (harr : ∀ w, Pipeline.arrRef spec0 w ≠ b) :
    Pipeline.afterTail₀ cfgs dats 0 (V0 m) [hostOps1] c b = m ((c : Thread nD τ).loc b) := by
  unfold Pipeline.afterTail₀
  rw [show List.flatten [(hostOps1 : List (HloOp τ sig (Elt F)))] = hostOps1 from List.append_nil _,
    StableHlo.after_of_writes_sub hostOps1 _ hostOps1_writes h1, Pipeline.withArrays_of_ne _ c _ _ b harr]
  show StableHlo.after (List.flatten [hostOps0]) (fun b => m (c, b)) (Proc.devRef .tc b) = _
  rw [show List.flatten [(hostOps0 : List (HloOp τ sig (Elt F)))] = hostOps0 from List.append_nil _,
    StableHlo.after_of_writes_sub hostOps0 _ hostOps0_writes h0]

/-! ## The input windows' blocks -/

/-- Input window 0's current staging buffer holds its block at every point (fetched at every point, never cut, never
    idle), for any proof data whose array is V's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (fetched at every point, never cut, never
    idle), for any proof data whose array is V's and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (fetched at every point, never cut, never
    idle), for any proof data whose array is V's and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (fetched at every point, never cut, never
    idle), for any proof data whose array is V's and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the pipeline library's -/

/-- A final state in the library's post has the four arguments as launched. None is an array of the pipeline, so each is
    read by the post's clause for the other unscoped buffers, and no host line writes it. -/
theorem kept_args_of (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide)).trans (tail_untouched m dats c main_arg0 (by decide) (by decide) (by decide)),
   ((h c).2 main_arg1 (by decide)).trans (tail_untouched m dats c main_arg1 (by decide) (by decide) (by decide)),
   ((h c).2 main_arg2 (by decide)).trans (tail_untouched m dats c main_arg2 (by decide) (by decide) (by decide)),
   ((h c).2 main_arg3 (by decide)).trans (tail_untouched m dats c main_arg3 (by decide) (by decide) (by decide))⟩

/-! ## The body's one branch -/

/-- The condition of the body's conditional: grid coordinate 1 is zero (the first of the two blocks of an output cell). -/
abbrev cond0_0 (i : grid0.Coords) : Prop := (Scalar.cmpi .ne (Scalar.extui (Scalar.cmpi .eq (BitVec.ofNat 32 (i 1).val) 0#32)) 0#32) = 1#1
/-- It holds at the even points of the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- No window is idle at any point. -/
theorem live (w : Fin cfg0.W) (t : Fin cfg0.N) : cfg0.idle w (grid0.coords t) = false := rfl

/-! ## The memrefs the body is called with -/

/-- One staging buffer of the output window, through which its contents are stated. -/
abbrev VO : View sig .tc .vmem S1x1x1 .f32 := (Memref.whole cc0_stg4_0 : Memref sig .tc .vmem S1x1x1 .f32).view
abbrev ms0 (t : Fin cfg0.N) : Memref sig .tc .vmem S5x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5x32768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5x32768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The scratch cell: a whole buffer of the kernel's own, carried from point to point. -/
abbrev scM : Memref sig .tc .vmem S1x1 .f32 := Memref.whole cc0_scratch0
abbrev VS : View sig .tc .vmem S1x1 .f32 := scM.view

/-- The class's region invariant with the scratch cell as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KRunA.lean ====
/-
  The kernel's body run once, at symbolic operands, at a point where grid coordinate 1 is zero (points 0 and 2): the
  scratch cell is reset before anything reads it, so the run asks nothing of what it held. The statement is a triple on
  whole memrefs — the four input blocks at given contents, the output block and the scratch at anything — to a
  continuation that gets the inputs back as they were and the output block and the scratch with the run's stores
  written; the two lists of stores are the witnesses, found when the buffers are handed to the continuation.
-/
import proofs.«168670_j16604343566366_2_alg».proof.Proof.KBase

-- membership in a rectangle of the blocks' extents is checked one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output block (L4) and the scratch (LS0), last first, where the conditional is taken,
    with the triple that produces them. -/
noncomputable def kernelRun0_A (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i)
    (x0 x1 x2 x3 : Vec F S5x32768 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KRunB.lean ====
/-
  The kernel's body run once, at symbolic operands, at a point where grid coordinate 1 is not zero (points 1 and 3): the
  scratch cell is read before it is stored into, so it comes in at given contents — what the point before left. The
  statement is the triple of the other case with the scratch at those contents; the two lists of stores are again the
  witnesses.
-/
import proofs.«168670_j16604343566366_2_alg».proof.Proof.KRunA

-- membership in a rectangle of the blocks' extents is checked one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output block (L4) and the scratch (LS0), last first, where the conditional is not taken,
    with the triple that produces them. -/
noncomputable def kernelRun0_B (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i)
    (x0 x1 x2 x3 : Vec F S5x32768 .f32) (xs0 : Vec F S1x1 .f32) :
    Σ' (L4 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KFrame.lean ====
/-
  The frame of the kernel program. What each case of the body leaves in the output block and in the scratch cell is its
  stores read back (they cover both: one cell each); outsAt0 follows the two through the four grid points — an even
  point resets the scratch, an odd point adds to what the point before left —; the proof data hold every input window
  at its block and the output window at outsAt0's first component, the region invariant carries the scratch at the
  second; the body obligation is the case's run at every point; the pipeline library's frame run around the region gives
  the post from which the four arguments are read off unchanged.
-/
import proofs.«168670_j16604343566366_2_alg».proof.Proof.KRunB

-- membership in a rectangle of the blocks' extents is checked one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the conditional is taken, the stores into the output block cover it. -/
theorem cover0_A_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) (y : S1x1x1.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x1x1.size (by sl_kernel_rfl) y

/-- What that case leaves in the output block: its stores read back. -/
def out0_A_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) : Vec F S1x1x1 .f32 :=
  VO.read (Elt F) (VO.writes (Elt F) VO.junk (kernelRun0_A c i arg2 harg2 arg3 harg3 arg4 harg4 arg5 harg5 arg6 harg6 arg7 harg7 hc0 x0 x1 x2 x3).1)

/-- Its stores into the scratch cell cover it. -/
theorem scover0_A_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) (y : S1x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x1.size (by sl_kernel_rfl) y

/-- What that case leaves in the scratch cell. -/
def sout0_A_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) : Vec F S1x1 .f32 :=
  VS.read (Elt F) (VS.writes (Elt F) VS.junk (kernelRun0_A c i arg2 harg2 arg3 harg3 arg4 harg4 arg5 harg5 arg6 harg6 arg7 harg7 hc0 x0 x1 x2 x3).2.1)

/-- Where the conditional is not taken, the stores into the output block cover it. -/
theorem cover0_B_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) (y : S1x1x1.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S1x1x1.size (by sl_kernel_rfl) y

/-- What that case leaves in the output block, over the scratch contents xs0 the point before left. -/
def out0_B_4 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) : Vec F S1x1x1 .f32 :=
  VO.read (Elt F) (VO.writes (Elt F) VO.junk (kernelRun0_B c i arg2 harg2 arg3 harg3 arg4 harg4 arg5 harg5 arg6 harg6 arg7 harg7 hc0 x0 x1 x2 x3 xs0).1)

/-- Its stores into the scratch cell cover it. -/
theorem scover0_B_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) (y : S1x1.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S1x1.size (by sl_kernel_rfl) y

/-- What that case leaves in the scratch cell. -/
def sout0_B_0 (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) : Vec F S1x1 .f32 :=
  VS.read (Elt F) (VS.writes (Elt F) VS.junk (kernelRun0_B c i arg2 harg2 arg3 harg3 arg4 harg4 arg5 harg5 arg6 harg6 arg7 harg7 hc0 x0 x1 x2 x3 xs0).2.1)

/-! ## Point by point -/

/-- What the output block and the scratch cell hold after the body at position n: at an even position the case that
    resets the scratch, run on the point's input blocks; at an odd one the other case, over the scratch the position
    before left. -/
def outsAt0 (c : Dev nD) : (n : ℕ) → n < cfg0.N → Vec F S1x1x1 .f32 × Vec F S1x1 .f32
  | 0, hn => (out0_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
      sout0_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
        sout0_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
        sout0_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At an even point. -/
theorem outsAt0_A (c : Dev nD) (t : Fin cfg0.N) (h0 : t.val % 2 = 0) :
    outsAt0 m c t.val t.isLt = (out0_A_4 c (grid0.coords t) (ms0 t) (hs0 t) (ms1 t) (hs1 t) (ms2 t) (hs2 t) (ms3 t) (hs3 t) (ms4 t) (hs4 t) scM (Memref.isWhole_whole _) ((hcond0_0 t).mpr h0) (iblk m c 0 t) (iblk m c 1 t) (iblk m c 2 t) (iblk m c 3 t),
      sout0_A_0 c (grid0.coords t) (ms0 t) (hs0 t) (ms1 t) (hs1 t) (ms2 t) (hs2 t) (ms3 t) (hs3 t) (ms4 t) (hs4 t) scM (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- At an odd point. -/
theorem outsAt0_B (c : Dev nD) (t : Fin cfg0.N) (h0 : ¬t.val % 2 = 0) :
    outsAt0 m c t.val t.isLt = (out0_B_4 c (grid0.coords t) (ms0 t) (hs0 t) (ms1 t) (hs1 t) (ms2 t) (hs2 t) (ms3 t) (hs3 t) (ms4 t) (hs4 t) scM (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      sout0_B_0 c (grid0.coords t) (ms0 t) (hs0 t) (ms1 t) (hs1 t) (ms2 t) (hs2 t) (ms3 t) (hs3 t) (ms4 t) (hs4 t) scM (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's (the scratch at anything); afterwards
    the scratch cell at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt0 m c (n - 1) (by omega)).2)) ∗ (∃ r, prngReg c r)) := by
  cases n with
  | zero => exact absurd rfl hz
  | succ n => rfl

/-! ## The proof data -/

/-- The proof data of the pipeline on core c: the arrays as the region finds them; after the body at point t each
    input's buffer at its block and the output's at outsAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4800000 in
/-- The body at any point: the inputs' memrefs hold their blocks; the point's parity says which case it is in; that
    case's run applies, the invariant handing it the scratch cell (at anything before the first point, at what the
    point before left afterwards) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0_0, after0_1, after0_2, after0_3, after0_4]
  have hN : t.val < 4 := lt_of_lt_of_eq t.isLt (show cfg0.N = 4 from N_0)
  by_cases h0 : t.val % 2 = 0
  · rw [outsAt0_A m c t h0]
    unfold out0_A_4 sout0_A_0; (try dsimp only)
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B m c t h0]
    unfold out0_B_4 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA_eq]
  iintro ⟨HS0, Hg⟩
  isplitl [HS0]
  · iexists _; iexact HS0
  iexact Hg

/-! ## The run and the frame -/

set_option backward.isDefEq.respectTransparency.types false in
/-- From any memory with zero counters, every weakly fair execution of @main on the TensorCores terminates, and every
    final state has each array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- A final state of that run has the four arguments as launched. -/
theorem kept_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  kept_args_of m (dats m) r h c

/-- The program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.KernelIdeal.Hand

end
-- ==== Proof.Spec.lean ====
/-
  The specification both programs are compared against, on the extended reals.

  Inputs: four arrays over 131072 samples and 5 sources — predicted angles a0, target angles a1, predicted distances a2,
  target distances a3. A source in polar form (angle, distance) is the plane point (cos angle · distance, sin angle · distance).
  dist n m k is the Euclidean distance between target m and prediction k of sample n. An assignment of predictions to
  targets is a map σ : Fin 5 → Fin 5; its cost is the sum over targets m of dist n m (σ m).

  The reference takes, per sample, the least cost/5 over the 120 permutations (listed in lexicographic order in permTab)
  and averages over the samples. The kernel computes, per sample, the least cost by the subset recurrence
  (hkDP: d_S is the least cost of matching the first |S| targets to the predictions in S; d_S = min over k in S of
  d_{S∖{k}} + D (|S|−1) k), sums these over the samples in four blocks of 32768 — two per output cell — and divides the
  total by 5·131072.
-/
import Idealize.ShloMosaic.PureOps.Ideal
import Idealize.ShloMosaic.Lib.ValueIdx

noncomputable section

open scoped BigOperators

namespace Cert.Spec

open Idealize.ShloMosaic

/-- An array of shape [131072, 5] read by its two coordinates. -/
def arr (x : (⟨2, ![131072, 5]⟩ : Shape).Idx → EReal) : Fin 131072 → Fin 5 → EReal := fun n k => x (ValueIdx.ix2 n k)

/-- The distance between a target at polar (ta, td) and a prediction at polar (pa, pd). -/
def dist1 (pa ta pd td : EReal) : EReal :=
  Ideal.sqrt ((Ideal.cos ta * td - Ideal.cos pa * pd) * (Ideal.cos ta * td - Ideal.cos pa * pd)
    + (Ideal.sin ta * td - Ideal.sin pa * pd) * (Ideal.sin ta * td - Ideal.sin pa * pd))

variable (a0 a1 a2 a3 : Fin 131072 → Fin 5 → EReal)

/-- The distance between target m and prediction k of sample n. -/
def dist (n : Fin 131072) (m k : Fin 5) : EReal := dist1 (a0 n k) (a1 n m) (a2 n k) (a3 n m)

/-- The cost of an assignment σ under a table of distances D. -/
def cost (D : Fin 5 → Fin 5 → EReal) (σ : Fin 5 → Fin 5) : EReal := ∑ m : Fin 5, D m (σ m)

/-- The 120 permutations of five sources, in lexicographic order. -/
def permTab : Fin 120 → Fin 5 → Fin 5 :=
  ![![0, 1, 2, 3, 4],
    ![0, 1, 2, 4, 3],
    ![0, 1, 3, 2, 4],
    ![0, 1, 3, 4, 2],
    ![0, 1, 4, 2, 3],
    ![0, 1, 4, 3, 2],
    ![0, 2, 1, 3, 4],
    ![0, 2, 1, 4, 3],
    ![0, 2, 3, 1, 4],
    ![0, 2, 3, 4, 1],
    ![0, 2, 4, 1, 3],
    ![0, 2, 4, 3, 1],
    ![0, 3, 1, 2, 4],
    ![0, 3, 1, 4, 2],
    ![0, 3, 2, 1, 4],
    ![0, 3, 2, 4, 1],
    ![0, 3, 4, 1, 2],
    ![0, 3, 4, 2, 1],
    ![0, 4, 1, 2, 3],
    ![0, 4, 1, 3, 2],
    ![0, 4, 2, 1, 3],
    ![0, 4, 2, 3, 1],
    ![0, 4, 3, 1, 2],
    ![0, 4, 3, 2, 1],
    ![1, 0, 2, 3, 4],
    ![1, 0, 2, 4, 3],
    ![1, 0, 3, 2, 4],
    ![1, 0, 3, 4, 2],
    ![1, 0, 4, 2, 3],
    ![1, 0, 4, 3, 2],
    ![1, 2, 0, 3, 4],
    ![1, 2, 0, 4, 3],
    ![1, 2, 3, 0, 4],
    ![1, 2, 3, 4, 0],
    ![1, 2, 4, 0, 3],
    ![1, 2, 4, 3, 0],
    ![1, 3, 0, 2, 4],
    ![1, 3, 0, 4, 2],
    ![1, 3, 2, 0, 4],
    ![1, 3, 2, 4, 0],
    ![1, 3, 4, 0, 2],
    ![1, 3, 4, 2, 0],
    ![1, 4, 0, 2, 3],
    ![1, 4, 0, 3, 2],
    ![1, 4, 2, 0, 3],
    ![1, 4, 2, 3, 0],
    ![1, 4, 3, 0, 2],
    ![1, 4, 3, 2, 0],
    ![2, 0, 1, 3, 4],
    ![2, 0, 1, 4, 3],
    ![2, 0, 3, 1, 4],
    ![2, 0, 3, 4, 1],
    ![2, 0, 4, 1, 3],
    ![2, 0, 4, 3, 1],
    ![2, 1, 0, 3, 4],
    ![2, 1, 0, 4, 3],
    ![2, 1, 3, 0, 4],
    ![2, 1, 3, 4, 0],
    ![2, 1, 4, 0, 3],
    ![2, 1, 4, 3, 0],
    ![2, 3, 0, 1, 4],
    ![2, 3, 0, 4, 1],
    ![2, 3, 1, 0, 4],
    ![2, 3, 1, 4, 0],
    ![2, 3, 4, 0, 1],
    ![2, 3, 4, 1, 0],
    ![2, 4, 0, 1, 3],
    ![2, 4, 0, 3, 1],
    ![2, 4, 1, 0, 3],
    ![2, 4, 1, 3, 0],
    ![2, 4, 3, 0, 1],
    ![2, 4, 3, 1, 0],
    ![3, 0, 1, 2, 4],
    ![3, 0, 1, 4, 2],
    ![3, 0, 2, 1, 4],
    ![3, 0, 2, 4, 1],
    ![3, 0, 4, 1, 2],
    ![3, 0, 4, 2, 1],
    ![3, 1, 0, 2, 4],
    ![3, 1, 0, 4, 2],
    ![3, 1, 2, 0, 4],
    ![3, 1, 2, 4, 0],
    ![3, 1, 4, 0, 2],
    ![3, 1, 4, 2, 0],
    ![3, 2, 0, 1, 4],
    ![3, 2, 0, 4, 1],
    ![3, 2, 1, 0, 4],
    ![3, 2, 1, 4, 0],
    ![3, 2, 4, 0, 1],
    ![3, 2, 4, 1, 0],
    ![3, 4, 0, 1, 2],
    ![3, 4, 0, 2, 1],
    ![3, 4, 1, 0, 2],
    ![3, 4, 1, 2, 0],
    ![3, 4, 2, 0, 1],
    ![3, 4, 2, 1, 0],
    ![4, 0, 1, 2, 3],
    ![4, 0, 1, 3, 2],
    ![4, 0, 2, 1, 3],
    ![4, 0, 2, 3, 1],
    ![4, 0, 3, 1, 2],
    ![4, 0, 3, 2, 1],
    ![4, 1, 0, 2, 3],
    ![4, 1, 0, 3, 2],
    ![4, 1, 2, 0, 3],
    ![4, 1, 2, 3, 0],
    ![4, 1, 3, 0, 2],
    ![4, 1, 3, 2, 0],
    ![4, 2, 0, 1, 3],
    ![4, 2, 0, 3, 1],
    ![4, 2, 1, 0, 3],
    ![4, 2, 1, 3, 0],
    ![4, 2, 3, 0, 1],
    ![4, 2, 3, 1, 0],
    ![4, 3, 0, 1, 2],
    ![4, 3, 0, 2, 1],
    ![4, 3, 1, 0, 2],
    ![4, 3, 1, 2, 0],
    ![4, 3, 2, 0, 1],
    ![4, 3, 2, 1, 0]]

/-- The subset recurrence: d_S for S = 1 … 31 read as bit sets of predictions; the value is d_31. -/
def hkDP (D : Fin 5 → Fin 5 → EReal) : EReal :=
  let d1 : EReal := D 0 0
  let d2 : EReal := D 0 1
  let d3 : EReal := min (d2 + D 1 0) (d1 + D 1 1)
  let d4 : EReal := D 0 2
  let d5 : EReal := min (d4 + D 1 0) (d1 + D 1 2)
  let d6 : EReal := min (d4 + D 1 1) (d2 + D 1 2)
  let d7 : EReal := min (min (d6 + D 2 0) (d5 + D 2 1)) (d3 + D 2 2)
  let d8 : EReal := D 0 3
  let d9 : EReal := min (d8 + D 1 0) (d1 + D 1 3)
  let d10 : EReal := min (d8 + D 1 1) (d2 + D 1 3)
  let d11 : EReal := min (min (d10 + D 2 0) (d9 + D 2 1)) (d3 + D 2 3)
  let d12 : EReal := min (d8 + D 1 2) (d4 + D 1 3)
  let d13 : EReal := min (min (d12 + D 2 0) (d9 + D 2 2)) (d5 + D 2 3)
  let d14 : EReal := min (min (d12 + D 2 1) (d10 + D 2 2)) (d6 + D 2 3)
  let d15 : EReal := min (min (min (d14 + D 3 0) (d13 + D 3 1)) (d11 + D 3 2)) (d7 + D 3 3)
  let d16 : EReal := D 0 4
  let d17 : EReal := min (d16 + D 1 0) (d1 + D 1 4)
  let d18 : EReal := min (d16 + D 1 1) (d2 + D 1 4)
  let d19 : EReal := min (min (d18 + D 2 0) (d17 + D 2 1)) (d3 + D 2 4)
  let d20 : EReal := min (d16 + D 1 2) (d4 + D 1 4)
  let d21 : EReal := min (min (d20 + D 2 0) (d17 + D 2 2)) (d5 + D 2 4)
  let d22 : EReal := min (min (d20 + D 2 1) (d18 + D 2 2)) (d6 + D 2 4)
  let d23 : EReal := min (min (min (d22 + D 3 0) (d21 + D 3 1)) (d19 + D 3 2)) (d7 + D 3 4)
  let d24 : EReal := min (d16 + D 1 3) (d8 + D 1 4)
  let d25 : EReal := min (min (d24 + D 2 0) (d17 + D 2 3)) (d9 + D 2 4)
  let d26 : EReal := min (min (d24 + D 2 1) (d18 + D 2 3)) (d10 + D 2 4)
  let d27 : EReal := min (min (min (d26 + D 3 0) (d25 + D 3 1)) (d19 + D 3 3)) (d11 + D 3 4)
  let d28 : EReal := min (min (d24 + D 2 2) (d20 + D 2 3)) (d12 + D 2 4)
  let d29 : EReal := min (min (min (d28 + D 3 0) (d25 + D 3 2)) (d21 + D 3 3)) (d13 + D 3 4)
  let d30 : EReal := min (min (min (d28 + D 3 1) (d26 + D 3 2)) (d22 + D 3 3)) (d14 + D 3 4)
  let d31 : EReal := min (min (min (min (d30 + D 4 0) (d29 + D 4 1)) (d27 + D 4 2)) (d23 + D 4 3)) (d15 + D 4 4)
  d31

/-- Sample number of position j of block i of output cell c. -/
def smp (c i : Fin 2) (j : Fin 32768) : Fin 131072 := ⟨(2 * c.val + i.val) * 32768 + j.val, by have := c.isLt; have := i.isLt; have := j.isLt; omega⟩

/-- What the reference returns. (The three words are the floats 5, 131072 and 655360.) -/
def refVal : EReal :=
  Ideal.div (∑ n : Fin 131072, Finset.univ.inf (fun p : Fin 120 =>
      Ideal.div (cost (dist a0 a1 a2 a3 n) (permTab p)) (Ideal.ofBits .f32 0x40A00000#32)))
    (Ideal.ofBits .f32 0x48000000#32)

/-- What the kernel's program returns. -/
def kerVal : EReal :=
  Ideal.div (∑ c : Fin 2, ((∑ j : Fin 32768, hkDP (dist a0 a1 a2 a3 (smp c 0 j)))
      + (∑ j : Fin 32768, hkDP (dist a0 a1 a2 a3 (smp c 1 j)))))
    (Ideal.ofBits .f32 0x49200000#32)

end Cert.Spec

end
-- ==== Proof.PayLane.lean ====
/-
  The pieces of the kernel body's arithmetic read one lane at a time at the extended reals: a plane coordinate
  (cos or sin of an angle row times a distance row), a distance between a target and a prediction, the lane sum that
  closes the body, and the subset recurrence over 25 distance vectors.
-/
import proofs.«168670_j16604343566366_2_alg».proof.Proof.Gen.KernelIdeal.Skeleton
import proofs.«168670_j16604343566366_2_alg».proof.Proof.Spec
import Idealize.ShloMosaic.Lib.ValueLayout
import Idealize.ShloMosaic.PureOps.Ideal.Laws

noncomputable section

open scoped BigOperators

namespace Cert.KernelIdeal.PayVal

open Idealize.ShloMosaic Idealize.ShloMosaic.ValueIdx
open Cert.KernelIdeal Cert.KernelIdeal.Gen

section Generic
variable {F : FTy → Type} [FloatOps F]

/-- The x-coordinates of a row of sources: cos of the angle row times the distance row, lane by lane. -/
def cosMul (r1 r2 : Vec F S1x32768 .f32) : FVec F S32768 .f32 :=
  mulf (cos (shapeCast S32768 r1 shapeCasts_S1x32768_S32768 : FVec F S32768 .f32))
    (shapeCast S32768 r2 shapeCasts_S1x32768_S32768 : FVec F S32768 .f32)

/-- The y-coordinates of a row of sources: sin of the angle row times the distance row, lane by lane. -/
def sinMul (r1 r2 : Vec F S1x32768 .f32) : FVec F S32768 .f32 :=
  mulf (sin (shapeCast S32768 r1 shapeCasts_S1x32768_S32768 : FVec F S32768 .f32))
    (shapeCast S32768 r2 shapeCasts_S1x32768_S32768 : FVec F S32768 .f32)

/-- The distances between a target (tx, ty) and a prediction (px, py), lane by lane. -/
def distV (px py tx ty : FVec F S32768 .f32) : FVec F S32768 .f32 :=
  sqrt (addf (mulf (subf tx px) (subf tx px)) (mulf (subf ty py) (subf ty py)))

/-- The 25 distance vectors of a block: row m is target m, column k is prediction k. -/
def distTab (pa ta pd td : Fin 5 → Vec F S1x32768 .f32) : Fin 5 → Fin 5 → FVec F S32768 .f32 :=
  fun m k => distV (cosMul (pa k) (pd k)) (sinMul (pa k) (pd k)) (cosMul (ta m) (td m)) (sinMul (ta m) (td m))

end Generic

/-! ## One lane of a coordinate and of a distance -/

theorem cosMul_lane (r1 r2 : Vec Ideal S1x32768 .f32) (j : Fin 32768) :
    cosMul r1 r2 (ix1 j) = Ideal.cos (r1 (ix2 0 j)) * r2 (ix2 0 j) := by
  unfold cosMul
  show Ideal.cos ((shapeCast S32768 r1 shapeCasts_S1x32768_S32768 : FVec Ideal S32768 .f32) (ix1 j))
      * (shapeCast S32768 r2 shapeCasts_S1x32768_S32768 : FVec Ideal S32768 .f32) (ix1 j) = _
  rw [shapeCast_1a_a_apply, shapeCast_1a_a_apply]

theorem sinMul_lane (r1 r2 : Vec Ideal S1x32768 .f32) (j : Fin 32768) :
    sinMul r1 r2 (ix1 j) = Ideal.sin (r1 (ix2 0 j)) * r2 (ix2 0 j) := by
  unfold sinMul
  show Ideal.sin ((shapeCast S32768 r1 shapeCasts_S1x32768_S32768 : FVec Ideal S32768 .f32) (ix1 j))
      * (shapeCast S32768 r2 shapeCasts_S1x32768_S32768 : FVec Ideal S32768 .f32) (ix1 j) = _
  rw [shapeCast_1a_a_apply, shapeCast_1a_a_apply]

theorem distV_lane (px py tx ty : FVec Ideal S32768 .f32) (i : S32768.Idx) :
    distV px py tx ty i = Ideal.sqrt ((tx i - px i) * (tx i - px i) + (ty i - py i) * (ty i - py i)) := rfl

/-- One lane of the distance table is the specification's distance of the lane's polar coordinates. -/
theorem distTab_lane (pa ta pd td : Fin 5 → Vec Ideal S1x32768 .f32) (m k : Fin 5) (j : Fin 32768) :
    distTab pa ta pd td m k (ix1 j)
      = Cert.Spec.dist1 (pa k (ix2 0 j)) (ta m (ix2 0 j)) (pd k (ix2 0 j)) (td m (ix2 0 j)) := by
  unfold distTab Cert.Spec.dist1
  rw [distV_lane, cosMul_lane, cosMul_lane, sinMul_lane, sinMul_lane]

/-! ## The zero vector and the lane sum -/

theorem pay53_lane (i : S32768.Idx) : k0_pay53 (F := Ideal) i = 0 := by
  unfold k0_pay53
  show Ideal.ofBits .f32 0x00000000#32 = 0
  exact Ideal.ofBits_zero_f32

/-- The one index of the reduced shape with a lane inserted is the lane's index of the row. -/
theorem lift_lane (k : Fin 32768) :
    (reduces_S1x32768_S1).lift (ix1 (0 : Fin 1)) k = ix2 (0 : Fin 1) k := by
  funext a
  match a with
  | ⟨0, _⟩ => exact Fin.ext rfl
  | ⟨1, _⟩ => exact Fin.ext rfl

/-- The lane sum with the zero accumulator, as the body spells it, at the reduced shape's one index. -/
theorem laneSum (src : FVec Ideal S1x32768 .f32) (hφ : FKind.Formats .f32)
    (hacc : (0x00000000#32 : BitVec 32) = 0x00000000#32) :
    multiReduction .add [1] S1 src 0x00000000#32 reduces_S1x32768_S1 hφ hacc (ix1 (0 : Fin 1))
      = ∑ k : Fin 32768, src (ix2 (0 : Fin 1) k) := by
  refine (Ideal.multiReduction_add_single src 0x00000000#32 reduces_S1x32768_S1 hφ hacc (ix1 (0 : Fin 1))).trans ?_
  exact Finset.sum_congr rfl fun k _ => congrArg src (lift_lane k)

/-- Reading the one cell of a [1,1] vector. -/
theorem extract00 {α : Type} (v : S1x1.Idx → α) (h : ∀ a, (![0, 0] : Fin 2 → Nat) a < S1x1.size a) :
    extractAt ![0, 0] v h = v (ix2 (0 : Fin 1) (0 : Fin 1)) := by
  unfold extractAt
  refine congrArg v (funext fun a => ?_)
  match a with
  | ⟨0, _⟩ => rfl
  | ⟨1, _⟩ => rfl

/-- The body's last payload: the least of the five closing candidates lane by lane, summed over the lanes and added to
    the scratch. -/
theorem pay1_tail (v248 v254 v260 v266 v272 v322 v354 v374 v386 v393 : FVec Ideal S32768 .f32)
    (xs : Vec Ideal S1x1 .f32) (i : S1x1.Idx) :
    k0_pay1 v248 v254 v260 v266 v272 v322 v354 v374 v386 v393 xs i
      = xs i + ∑ j : Fin 32768,
          min (min (min (min (v393 (ix1 j) + v248 (ix1 j)) (v386 (ix1 j) + v254 (ix1 j)))
            (v374 (ix1 j) + v260 (ix1 j))) (v354 (ix1 j) + v266 (ix1 j))) (v322 (ix1 j) + v272 (ix1 j)) := by
  unfold k0_pay1
  dsimp only []
  rw [shapeCast_self, addf_apply, broadcast_apply, extract00, shapeCast_a_1a_apply, laneSum]
  refine congrArg (fun s => xs i + s) (Finset.sum_congr rfl fun k _ => ?_)
  rw [shapeCast_a_1a_apply]
  rfl

/-- The scratch after the body from the 25 distance vectors (row m, column k) and the scratch before: the zero vector,
    the subset recurrence over bit sets of predictions, the lane sum and its addition to the scratch, composed as the
    body composes them. -/
def accOfD {F : FTy → Type} [FloatOps F] (D : Fin 5 → Fin 5 → FVec F S32768 .f32) (xs : Vec F S1x1 .f32) :
    FVec F S1x1 .f32 :=
  let v273 := k0_pay53 (F := F)
  let v279 := k0_pay57 (D 0 2) v273
  let v282 := k0_pay58 (D 0 0) (D 0 2) (D 1 0) (D 1 2) v273
  let v285 := k0_pay59 (D 0 1) (D 0 2) (D 1 1) (D 1 2) v273
  let v290 := k0_pay60 (D 0 0) (D 0 1) (D 0 2) (D 1 0) (D 1 1) (D 1 2) (D 2 0) (D 2 1) (D 2 2) v273
  let v291 := k0_pay61 (D 0 3) v273
  let v294 := k0_pay62 (D 0 0) (D 0 3) (D 1 0) (D 1 3) v273
  let v297 := k0_pay63 (D 0 1) (D 0 3) (D 1 1) (D 1 3) v273
  let v302 := k0_pay64 (D 0 0) (D 0 1) (D 0 3) (D 1 0) (D 1 1) (D 1 3) (D 2 0) (D 2 1) (D 2 3) v273
  let v305 := k0_pay65 (D 0 2) (D 0 3) (D 1 2) (D 1 3) v273
  let v310 := k0_pay66 (D 0 0) (D 0 2) (D 0 3) (D 1 0) (D 1 2) (D 1 3) (D 2 0) (D 2 2) (D 2 3) v273
  let v315 := k0_pay67 (D 0 1) (D 0 2) (D 0 3) (D 1 1) (D 1 2) (D 1 3) (D 2 1) (D 2 2) (D 2 3) v273
  let v322 := k0_pay68 (D 0 0) (D 0 1) (D 0 2) (D 0 3) (D 1 0) (D 1 1) (D 1 2) (D 1 3) (D 2 0) (D 2 1) (D 2 2) (D 2 3) (D 3 0) (D 3 1) (D 3 2) (D 3 3) v273
  let v323 := k0_pay69 (D 0 4) v273
  let v326 := k0_pay70 (D 0 0) (D 0 4) (D 1 0) (D 1 4) v273
  let v329 := k0_pay71 (D 0 1) (D 0 4) (D 1 1) (D 1 4) v273
  let v332 := k0_pay72 (D 0 0) (D 0 1) (D 0 4) (D 1 0) (D 1 1) (D 1 4) (D 2 0) (D 2 1) v273
  let v333 := k0_pay73 (D 0 0) (D 0 1) (D 1 0) (D 1 1) (D 2 4) v273
  let v354 := k0_pay78 (D 1 2) (D 1 4) (D 2 0) (D 2 1) (D 2 2) (D 2 4) (D 3 0) (D 3 1) (D 3 2) (D 3 4) v279 v282 v285 v290 v323 v326 v329 v332 v333
  let v374 := k0_pay82 (D 1 3) (D 1 4) (D 2 0) (D 2 1) (D 2 3) (D 2 4) (D 3 0) (D 3 1) (D 3 3) (D 3 4) v291 v294 v297 v302 v323 v326 v329 v332 v333
  let v386 := k0_pay84 (D 1 2) (D 1 3) (D 1 4) (D 2 0) (D 2 2) (D 2 3) (D 2 4) (D 3 0) (D 3 2) (D 3 3) (D 3 4) v279 v282 v291 v294 v305 v310 v323 v326
  let v393 := k0_pay85 (D 1 2) (D 1 3) (D 1 4) (D 2 1) (D 2 2) (D 2 3) (D 2 4) (D 3 1) (D 3 2) (D 3 3) (D 3 4) v279 v285 v291 v297 v305 v315 v323 v329
  k0_pay1 (D 4 0) (D 4 1) (D 4 2) (D 4 3) (D 4 4) v322 v354 v374 v386 v393 xs

/-- The subset recurrence on the 25 distance vectors is, lane by lane, the specification's recurrence on the lane's
    table: the body's zero for the empty set drops out of the singletons' costs. -/
theorem accOfD_ideal (D : Fin 5 → Fin 5 → FVec Ideal S32768 .f32) (xs : Vec Ideal S1x1 .f32) :
    accOfD D xs = fun i => xs i + ∑ j : Fin 32768, Cert.Spec.hkDP (fun m k => D m k (ix1 j)) := by
  funext i
  unfold accOfD
  refine (pay1_tail _ _ _ _ _ _ _ _ _ _ xs i).trans ?_
  refine congrArg (fun s => xs i + s) (Finset.sum_congr rfl fun j _ => ?_)
  simp only [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, addf_apply, minimumf_apply, pay53_lane, zero_add]
  unfold Cert.Spec.hkDP
  rfl

end Cert.KernelIdeal.PayVal

end
-- ==== Proof.PayVal.lean ====
/-
  The kernel body's arithmetic at the ideal instance. The body computes, lane by lane over the 32768 samples of a block,
  the plane coordinates of the five predictions and the five targets, their 25 distances, and the least cost of a
  matching by the subset recurrence; it then adds the sum over the lanes to the one-cell scratch. Here that composition
  of the body's pure payloads is named (accStep) and read at the extended reals: the scratch after the body is the
  scratch before plus the sum over the lanes of the recurrence's value on the lane's table of distances.
-/
import proofs.«168670_j16604343566366_2_alg».proof.Proof.Gen.KernelIdeal.Skeleton
import proofs.«168670_j16604343566366_2_alg».proof.Proof.PayLane
import proofs.«168670_j16604343566366_2_alg».proof.Proof.Spec
import Idealize.ShloMosaic.Lib.ValueLayout
import Idealize.ShloMosaic.PureOps.Ideal.Laws

noncomputable section

open scoped BigOperators

namespace Cert.KernelIdeal.PayVal

open Idealize.ShloMosaic Idealize.ShloMosaic.ValueIdx
open Cert.KernelIdeal Cert.KernelIdeal.Gen

/-- The scratch after the body: the payloads composed as the skeleton composes them, over the rows of the four blocks
    (predicted angles, target angles, predicted distances, target distances) and the scratch before. The names are the
    skeleton's: v8 … v32 and v38 … v62 the predictions' plane coordinates, v68 … v92 and v98 … v122 the targets',
    v128 … v272 the 25 distances (row m, column k), v273 the zero vector, v279 … v393 the subset recurrence. -/
def accStep {F : FTy → Type} [FloatOps F] [Cert.KernelIdeal.Facts] (pa ta pd td : Fin 5 → Vec F Cert.KernelIdeal.S1x32768 .f32)
    (xs : Vec F Cert.KernelIdeal.S1x1 .f32) : FVec F Cert.KernelIdeal.S1x1 .f32 :=
  let v8 := k0_pay4 (pa 0) (pd 0)
  let v14 := k0_pay5 (pa 1) (pd 1)
  let v20 := k0_pay6 (pa 2) (pd 2)
  let v26 := k0_pay7 (pa 3) (pd 3)
  let v32 := k0_pay8 (pa 4) (pd 4)
  let v38 := k0_pay9 (pa 0) (pd 0)
  let v44 := k0_pay10 (pa 1) (pd 1)
  let v50 := k0_pay11 (pa 2) (pd 2)
  let v56 := k0_pay12 (pa 3) (pd 3)
  let v62 := k0_pay13 (pa 4) (pd 4)
  let v68 := k0_pay14 (ta 0) (td 0)
  let v74 := k0_pay15 (ta 1) (td 1)
  let v80 := k0_pay16 (ta 2) (td 2)
  let v86 := k0_pay17 (ta 3) (td 3)
  let v92 := k0_pay18 (ta 4) (td 4)
  let v98 := k0_pay19 (ta 0) (td 0)
  let v104 := k0_pay20 (ta 1) (td 1)
  let v110 := k0_pay21 (ta 2) (td 2)
  let v116 := k0_pay22 (ta 3) (td 3)
  let v122 := k0_pay23 (ta 4) (td 4)
  let v128 := k0_pay24 v8 v38 v68 v98
  let v134 := k0_pay25 v14 v44 v68 v98
  let v140 := k0_pay26 v20 v50 v68 v98
  let v146 := k0_pay27 v26 v56 v68 v98
  let v152 := k0_pay28 v32 v62 v68 v98
  let v153 := k0_pay29 v8 v74
  let v154 := k0_pay30 v38 v104
  let v158 := k0_pay31 v153 v154
  let v164 := k0_pay32 v14 v44 v74 v104
  let v170 := k0_pay33 v20 v50 v74 v104
  let v176 := k0_pay34 v26 v56 v74 v104
  let v182 := k0_pay35 v32 v62 v74 v104
  let v188 := k0_pay36 v8 v38 v80 v110
  let v194 := k0_pay37 v14 v44 v80 v110
  let v200 := k0_pay38 v20 v50 v80 v110
  let v206 := k0_pay39 v26 v56 v80 v110
  let v212 := k0_pay40 v32 v62 v80 v110
  let v213 := k0_pay41 v8 v86
  let v214 := k0_pay42 v38 v116
  let v218 := k0_pay43 v213 v214
  let v224 := k0_pay44 v14 v44 v86 v116
  let v230 := k0_pay45 v20 v50 v86 v116
  let v236 := k0_pay46 v26 v56 v86 v116
  let v242 := k0_pay47 v32 v62 v86 v116
  let v248 := k0_pay48 v8 v38 v92 v122
  let v254 := k0_pay49 v14 v44 v92 v122
  let v260 := k0_pay50 v20 v50 v92 v122
  let v266 := k0_pay51 v26 v56 v92 v122
  let v272 := k0_pay52 v32 v62 v92 v122
  let v273 := k0_pay53 (F := F)
  let v279 := k0_pay57 v140 v273
  let v282 := k0_pay58 v128 v140 v158 v170 v273
  let v285 := k0_pay59 v134 v140 v164 v170 v273
  let v290 := k0_pay60 v128 v134 v140 v158 v164 v170 v188 v194 v200 v273
  let v291 := k0_pay61 v146 v273
  let v294 := k0_pay62 v128 v146 v158 v176 v273
  let v297 := k0_pay63 v134 v146 v164 v176 v273
  let v302 := k0_pay64 v128 v134 v146 v158 v164 v176 v188 v194 v206 v273
  let v305 := k0_pay65 v140 v146 v170 v176 v273
  let v310 := k0_pay66 v128 v140 v146 v158 v170 v176 v188 v200 v206 v273
  let v315 := k0_pay67 v134 v140 v146 v164 v170 v176 v194 v200 v206 v273
  let v322 := k0_pay68 v128 v134 v140 v146 v158 v164 v170 v176 v188 v194 v200 v206 v218 v224 v230 v236 v273
  let v323 := k0_pay69 v152 v273
  let v326 := k0_pay70 v128 v152 v158 v182 v273
  let v329 := k0_pay71 v134 v152 v164 v182 v273
  let v332 := k0_pay72 v128 v134 v152 v158 v164 v182 v188 v194 v273
  let v333 := k0_pay73 v128 v134 v158 v164 v212 v273
  let v354 := k0_pay78 v170 v182 v188 v194 v200 v212 v218 v224 v230 v242 v279 v282 v285 v290 v323 v326 v329 v332 v333
  let v374 := k0_pay82 v176 v182 v188 v194 v206 v212 v218 v224 v236 v242 v291 v294 v297 v302 v323 v326 v329 v332 v333
  let v386 := k0_pay84 v170 v176 v182 v188 v200 v206 v212 v218 v230 v236 v242 v279 v282 v291 v294 v305 v310 v323 v326
  let v393 := k0_pay85 v170 v176 v182 v194 v200 v206 v212 v224 v230 v236 v242 v279 v285 v291 v297 v305 v315 v323 v329
  k0_pay1 v248 v254 v260 v266 v272 v322 v354 v374 v386 v393 xs

/-- The payloads of the coordinates and of the distances are the generic ones: unfolding both sides gives the same
    composition of pointwise operations, so the body's scratch is the recurrence on the block's distance table. -/
theorem accStep_eq {F : FTy → Type} [FloatOps F] [Cert.KernelIdeal.Facts] (pa ta pd td : Fin 5 → Vec F Cert.KernelIdeal.S1x32768 .f32)
    (xs : Vec F Cert.KernelIdeal.S1x1 .f32) : accStep pa ta pd td xs = accOfD (distTab pa ta pd td) xs := rfl

theorem accStep_ideal [Cert.KernelIdeal.Facts] (pa ta pd td : Fin 5 → Vec Ideal Cert.KernelIdeal.S1x32768 .f32) (xs : Vec Ideal Cert.KernelIdeal.S1x1 .f32) :
    accStep pa ta pd td xs = fun i => xs i + ∑ j : Fin 32768, Cert.Spec.hkDP (fun m k => Cert.Spec.dist1 (pa k (ValueIdx.ix2 0 j)) (ta m (ValueIdx.ix2 0 j)) (pd k (ValueIdx.ix2 0 j)) (td m (ValueIdx.ix2 0 j))) := by
  rw [accStep_eq, accOfD_ideal]
  funext i
  refine congrArg (fun s => xs i + s) (Finset.sum_congr rfl fun j _ => ?_)
  refine congrArg Cert.Spec.hkDP (funext fun m => funext fun k => ?_)
  exact distTab_lane pa ta pd td m k j

/-- The value the first grid step of a core stores into the scratch is the zero cell. -/
theorem pay3_ideal : (k0_pay3 (F := Ideal)) = fun _ => 0 := by
  unfold k0_pay3
  dsimp only []
  rw [shapeCast_self]
  funext i
  show Ideal.ofBits .f32 0x00000000#32 = 0
  exact Ideal.ofBits_zero_f32

/-- The value stored into the output cell is the scratch's one cell. -/
theorem pay2_ideal (v : Vec Ideal S1x1 .f32) : k0_pay2 v (ValueIdx.ix3 0 0 0) = v (ValueIdx.ix2 0 0) := by
  unfold k0_pay2
  exact shapeCast_ab_1ab_apply v _ 0 0 0

end Cert.KernelIdeal.PayVal

end
-- ==== Proof.KPieces.lean ====
/-
  What the runs' stores are, in the body's own payloads. The scratch after the body is the body's accumulation step
  (the payloads composed as the body composes them) over the five rows of each of the four input blocks and the
  scratch before — the zero cell where the scratch was just reset, what the point before left otherwise —; the
  output block is the scratch's cell recast to the block's shape.
-/
import proofs.«168670_j16604343566366_2_alg».proof.Proof.KFrame
import proofs.«168670_j16604343566366_2_alg».proof.Proof.PayVal
import Idealize.ShloMosaic.Lib.Pipeline.Value
import Idealize.ShloMosaic.Lib.ValueIdx

-- membership in a rectangle of the blocks' extents is checked one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row r of a [5, 32768] block as the [1, 32768] vector a load of that row reads. -/
def row (x : Vec F S5x32768 .f32) : Fin 5 → Vec F S1x32768 .f32
  | 0 => View.ld x (Rect.unit ![0, 0] S1x32768.size inb_S5x32768_S1x32768_0_0)
  | 1 => View.ld x (Rect.unit ![1, 0] S1x32768.size inb_S5x32768_S1x32768_1_0)
  | 2 => View.ld x (Rect.unit ![2, 0] S1x32768.size inb_S5x32768_S1x32768_2_0)
  | 3 => View.ld x (Rect.unit ![3, 0] S1x32768.size inb_S5x32768_S1x32768_3_0)
  | 4 => View.ld x (Rect.unit ![4, 0] S1x32768.size inb_S5x32768_S1x32768_4_0)

/-- Its lane j is the block's entry (r, j). -/
theorem row_apply (x : Vec F S5x32768 .f32) (r : Fin 5) (j : Fin 32768) : row x r (ix2 0 j) = x (ix2 r j) := by
  fin_cases r <;>
  · show x _ = x _
    refine congrArg x ?_
    funext a
    apply Fin.ext
    match a with
    | ⟨0, _⟩ => rfl
    | ⟨1, _⟩ => show 0 + 1 * j.val = j.val; omega

theorem zero2 : (![0, 0] : Fin S1x1.rank → Nat) = fun _ => 0 := by funext a; fin_cases a <;> rfl
theorem zero3 : (![0, 0, 0] : Fin S1x1x1.rank → Nat) = fun _ => 0 := by funext a; fin_cases a <;> rfl

set_option maxHeartbeats 4000000 in
/-- Where the scratch is reset first: the accumulation step over the zero cell just stored. -/
theorem sout0_A_0_eq (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) :
    sout0_A_0 c i arg2 harg2 arg3 harg3 arg4 harg4 arg5 harg5 arg6 harg6 arg7 harg7 hc0 x0 x1 x2 x3 = PayVal.accStep (row x0) (row x1) (row x2) (row x3) (k0_pay3 (F := F)) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero zero2]
  rw [View.readCov_unit_zero _ zero2]
  simp only [View.readAt_eq_ld, harg2.read_unread, harg3.read_unread, harg4.read_unread, harg5.read_unread]
  rfl

set_option maxHeartbeats 4000000 in
/-- Where it is not: the accumulation step over what the point before left. -/
theorem sout0_B_0_eq (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) :
    sout0_B_0 c i arg2 harg2 arg3 harg3 arg4 harg4 arg5 harg5 arg6 harg6 arg7 harg7 hc0 x0 x1 x2 x3 xs0 = PayVal.accStep (row x0) (row x1) (row x2) (row x3) xs0 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero zero2]
  simp only [View.readAt_eq_ld, harg2.read_unread, harg3.read_unread, harg4.read_unread, harg5.read_unread, harg7.read_unread,
    View.ld_unit_zero (S := S1x1) zero2]
  rfl

/-- The output block is the scratch's cell as the body leaves it, recast. -/
theorem out0_A_4_eq (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (x0 x1 x2 x3 : Vec F S5x32768 .f32) :
    out0_A_4 c i arg2 harg2 arg3 harg3 arg4 harg4 arg5 harg5 arg6 harg6 arg7 harg7 hc0 x0 x1 x2 x3 = k0_pay2 (sout0_A_0 c i arg2 harg2 arg3 harg3 arg4 harg4 arg5 harg5 arg6 harg6 arg7 harg7 hc0 x0 x1 x2 x3) := by
  unfold out0_A_4 sout0_A_0
  rw [View.read_writes_eq_canon _ _ _ (cover0_A_4 c i arg2 harg2 arg3 harg3 arg4 harg4 arg5 harg5 arg6 harg6 arg7 harg7 hc0 x0 x1 x2 x3),
    View.read_writes_eq_canon _ _ _ (scover0_A_0 c i arg2 harg2 arg3 harg3 arg4 harg4 arg5 harg5 arg6 harg6 arg7 harg7 hc0 x0 x1 x2 x3)]
  have hs := scover0_A_0 c i arg2 harg2 arg3 harg3 arg4 harg4 arg5 harg5 arg6 harg6 arg7 harg7 hc0 x0 x1 x2 x3
  unfold kernelRun0_A at hs ⊢
  dsimp only at hs ⊢
  rw [View.canon_unit_zero zero3]
  refine congrArg k0_pay2 ?_
  unfold kernelRun0_A.sl.v413
  rw [View.readCov_eq_canon_ld _ _ _ hs, View.ld_unit_zero (S := S1x1) zero2]

theorem out0_B_4_eq (c : Dev nD) (i : grid0.Coords) (arg2 : Memref sig .tc .vmem S5x32768 .f32) (harg2 : arg2.IsWhole) (arg3 : Memref sig .tc .vmem S5x32768 .f32) (harg3 : arg3.IsWhole) (arg4 : Memref sig .tc .vmem S5x32768 .f32) (harg4 : arg4.IsWhole) (arg5 : Memref sig .tc .vmem S5x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (x0 x1 x2 x3 : Vec F S5x32768 .f32) (xs0 : Vec F S1x1 .f32) :
    out0_B_4 c i arg2 harg2 arg3 harg3 arg4 harg4 arg5 harg5 arg6 harg6 arg7 harg7 hc0 x0 x1 x2 x3 xs0 = k0_pay2 (sout0_B_0 c i arg2 harg2 arg3 harg3 arg4 harg4 arg5 harg5 arg6 harg6 arg7 harg7 hc0 x0 x1 x2 x3 xs0) := by
  unfold out0_B_4 sout0_B_0
  rw [View.read_writes_eq_canon _ _ _ (cover0_B_4 c i arg2 harg2 arg3 harg3 arg4 harg4 arg5 harg5 arg6 harg6 arg7 harg7 hc0 x0 x1 x2 x3 xs0),
    View.read_writes_eq_canon _ _ _ (scover0_B_0 c i arg2 harg2 arg3 harg3 arg4 harg4 arg5 harg5 arg6 harg6 arg7 harg7 hc0 x0 x1 x2 x3 xs0)]
  have hs := scover0_B_0 c i arg2 harg2 arg3 harg3 arg4 harg4 arg5 harg5 arg6 harg6 arg7 harg7 hc0 x0 x1 x2 x3 xs0
  unfold kernelRun0_B at hs ⊢
  dsimp only at hs ⊢
  rw [View.canon_unit_zero zero3]
  refine congrArg k0_pay2 ?_
  unfold kernelRun0_B.sl.v413
  rw [View.readCov_eq_canon_ld _ _ _ hs, View.ld_unit_zero (S := S1x1) zero2]

end Cert.KernelIdeal.Hand

end
-- ==== Proof.KArrays.lean ====
/-
  The four input windows' arrays, as the kernel program's region finds them, are the four arguments transposed.

  Before the region the program stacks the four [131072, 5] arguments along a new leading axis, swaps the last two
  axes, and slices the four [5, 131072] planes apart again. Read at an index (k, n), plane j of the result is argument j
  at (n, k): the cast drops the leading unit axis, the slice at offset j picks plane j of the stack, the transpose swaps
  k and n, the concatenation along the leading axis reads its j-th piece, and the piece is argument j under a leading
  unit axis.
-/
import proofs.«168670_j16604343566366_2_alg».proof.Proof.KEntry
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section Layout

variable {α : Type}

/-- An [131072, 5] array under a new leading unit axis reads, at (0, n, k), the array at (n, k). -/
theorem bcast_apply (a : S131072x5.Idx → α) (h : S131072x5.BroadcastsInDim S1x131072x5 (![1, 2] : Fin 2 → Fin S1x131072x5.rank))
    (n : Fin 131072) (k : Fin 5) :
    broadcastInDim S1x131072x5 ![1, 2] h a (ix3 (0 : Fin 1) n k) = a (ix2 n k) :=
  broadcastInDim_apply _ h a _ _ (fun ax => by
    match ax with
    | ⟨0, _⟩ => exact Eq.symm (if_neg (show ¬ (131072 : ℕ) = 1 by decide))
    | ⟨1, _⟩ => exact Eq.symm (if_neg (show ¬ (5 : ℕ) = 1 by decide)))

/-- Four [1, 131072, 5] pieces stacked along the leading axis read, at (j, n, k), piece j at (0, n, k). -/
theorem concat4_apply (x0 x1 x2 x3 : S1x131072x5.Idx → α)
    (h : Shape.Concatenates [S1x131072x5, S1x131072x5, S1x131072x5, S1x131072x5] S4x131072x5 0)
    (j : Fin 4) (n : Fin 131072) (k : Fin 5) :
    concatenate S4x131072x5 0 [⟨S1x131072x5, x0⟩, ⟨S1x131072x5, x1⟩, ⟨S1x131072x5, x2⟩, ⟨S1x131072x5, x3⟩] h (ix3 j n k)
      = (![x0, x1, x2, x3] j) (ix3 (0 : Fin 1) n k) := by
  have hi : ∀ (J : Fin 4) (b : Fin S1x131072x5.rank), b.cast (rfl : S1x131072x5.rank = S4x131072x5.rank) ≠ (0 : Fin S4x131072x5.rank) →
      ((ix3 (0 : Fin 1) n k : S1x131072x5.Idx) b).val = ((ix3 J n k : S4x131072x5.Idx) (b.cast rfl)).val := fun J b hb => by
    match b with
    | ⟨0, _⟩ => exact absurd rfl hb
    | ⟨1, _⟩ => rfl
    | ⟨2, _⟩ => rfl
  fin_cases j
  · exact concatenate_apply_piece (t := S4x131072x5) 0 [⟨S1x131072x5, x0⟩, ⟨S1x131072x5, x1⟩, ⟨S1x131072x5, x2⟩, ⟨S1x131072x5, x3⟩] h _ 0 (show (0 : ℕ) < 4 by decide) S1x131072x5 x0 rfl rfl 0 rfl (ix3 (0 : Fin 1) n k) (hi _) rfl
  · exact concatenate_apply_piece (t := S4x131072x5) 0 [⟨S1x131072x5, x0⟩, ⟨S1x131072x5, x1⟩, ⟨S1x131072x5, x2⟩, ⟨S1x131072x5, x3⟩] h _ 1 (show (1 : ℕ) < 4 by decide) S1x131072x5 x1 rfl rfl 1 rfl (ix3 (0 : Fin 1) n k) (hi _) rfl
  · exact concatenate_apply_piece (t := S4x131072x5) 0 [⟨S1x131072x5, x0⟩, ⟨S1x131072x5, x1⟩, ⟨S1x131072x5, x2⟩, ⟨S1x131072x5, x3⟩] h _ 2 (show (2 : ℕ) < 4 by decide) S1x131072x5 x2 rfl rfl 2 rfl (ix3 (0 : Fin 1) n k) (hi _) rfl
  · exact concatenate_apply_piece (t := S4x131072x5) 0 [⟨S1x131072x5, x0⟩, ⟨S1x131072x5, x1⟩, ⟨S1x131072x5, x2⟩, ⟨S1x131072x5, x3⟩] h _ 3 (show (3 : ℕ) < 4 by decide) S1x131072x5 x3 rfl rfl 3 rfl (ix3 (0 : Fin 1) n k) (hi _) rfl

/-- The slice of a [4, 5, 131072] stack at offset (o, 0, 0) reads, at (0, k, n), the stack at (o, k, n). -/
theorem slice_plane_apply (o : Nat) (X : S4x5x131072.Idx → α) (h : S4x5x131072.Slices ![o, 0, 0] S1x5x131072)
    (J : Fin 4) (hJ : J.val = o) (k : Fin 5) (n : Fin 131072) :
    extractStridedSlice S1x5x131072 ![o, 0, 0] X h (ix3 (0 : Fin 1) k n) = X (ix3 J k n) :=
  extractStridedSlice_apply _ X h _ _ (fun ax => by
    match ax with
    | ⟨0, _⟩ => exact hJ.trans (Nat.add_zero o).symm
    | ⟨1, _⟩ => exact (Nat.zero_add _).symm
    | ⟨2, _⟩ => exact (Nat.zero_add _).symm)

variable [Facts₀]

/-- The plane the program slices at offset `off` out of the four arrays stacked and transposed, cast to [5, 131072]. -/
def plane (a0 a1 a2 a3 : S131072x5.Idx → α) (off : Fin S4x5x131072.rank → Nat) (hs : S4x5x131072.Slices off S1x5x131072) :
    S5x131072.Idx → α :=
  shapeCast S5x131072
    (extractStridedSlice S1x5x131072 off
      (transpose S4x5x131072 [0, 2, 1]
        (concatenate S4x131072x5 0
          [⟨S1x131072x5, broadcastInDim S1x131072x5 ![1, 2] Facts₀.bcast_S131072x5_S1x131072x5_1_2 a0⟩,
           ⟨S1x131072x5, broadcastInDim S1x131072x5 ![1, 2] Facts₀.bcast_S131072x5_S1x131072x5_1_2 a1⟩,
           ⟨S1x131072x5, broadcastInDim S1x131072x5 ![1, 2] Facts₀.bcast_S131072x5_S1x131072x5_1_2 a2⟩,
           ⟨S1x131072x5, broadcastInDim S1x131072x5 ![1, 2] Facts₀.bcast_S131072x5_S1x131072x5_1_2 a3⟩]
          Facts₀.concatenates_S1x131072x5_S1x131072x5_S1x131072x5_S1x131072x5_S4x131072x5_d0)
        Facts₀.transposes_S4x131072x5_S4x5x131072_0_2_1)
      hs)
    Facts₀.shapeCasts_S1x5x131072_S5x131072

/-- The plane at offset (o, 0, 0) reads, at (k, n), array o at (n, k). -/
theorem plane_apply (a0 a1 a2 a3 : S131072x5.Idx → α) (o : Nat) (hs : S4x5x131072.Slices ![o, 0, 0] S1x5x131072)
    (J : Fin 4) (hJ : J.val = o) (i : S5x131072.Idx) :
    plane a0 a1 a2 a3 ![o, 0, 0] hs i = (![a0, a1, a2, a3] J) (ix2 (i 1) (i 0)) := by
  obtain ⟨k, n, rfl⟩ : ∃ (k : Fin 5) (n : Fin 131072), i = ix2 k n := ⟨i 0, i 1, eq_ix2 i⟩
  unfold plane
  refine (shapeCast_1ab_ab_apply _ _ k n).trans ?_
  refine (slice_plane_apply o _ hs J hJ k n).trans ?_
  refine (transpose_ix3_021_apply _ _ J k n).trans ?_
  refine (concat4_apply _ _ _ _ _ J n k).trans ?_
  fin_cases J
  · exact bcast_apply a0 Facts₀.bcast_S131072x5_S1x131072x5_1_2 n k
  · exact bcast_apply a1 Facts₀.bcast_S131072x5_S1x131072x5_1_2 n k
  · exact bcast_apply a2 Facts₀.bcast_S131072x5_S1x131072x5_1_2 n k
  · exact bcast_apply a3 Facts₀.bcast_S131072x5_S1x131072x5_1_2 n k

end Layout

variable (m : (ℓ : Loc nD τ sig) → Buf (Elt Ideal) ℓ) (c : Dev nD)

/-- What the fourteen host operations leave in the four windows' arrays: the planes at offsets 0, 1, 2, 3 of the four
    arguments stacked and transposed. -/
theorem V_v7_plane : (V (F := Ideal) m c main_v7 : S5x131072.Idx → EReal)
    = plane (m ((c.tc : Thread nD τ).loc main_arg0)) (m ((c.tc : Thread nD τ).loc main_arg1)) (m ((c.tc : Thread nD τ).loc main_arg2))
        (m ((c.tc : Thread nD τ).loc main_arg3)) ![0, 0, 0] Facts₀.slices_S4x5x131072_S1x5x131072_0_0_0 := by
  show StableHlo.after hostOps0 (fun b => m (c, b)) (Proc.devRef .tc main_v7) = _
  after_results
  rfl

theorem V_v9_plane : (V (F := Ideal) m c main_v9 : S5x131072.Idx → EReal)
    = plane (m ((c.tc : Thread nD τ).loc main_arg0)) (m ((c.tc : Thread nD τ).loc main_arg1)) (m ((c.tc : Thread nD τ).loc main_arg2))
        (m ((c.tc : Thread nD τ).loc main_arg3)) ![1, 0, 0] Facts₀.slices_S4x5x131072_S1x5x131072_1_0_0 := by
  show StableHlo.after hostOps0 (fun b => m (c, b)) (Proc.devRef .tc main_v9) = _
  after_results
  rfl

theorem V_v11_plane : (V (F := Ideal) m c main_v11 : S5x131072.Idx → EReal)
    = plane (m ((c.tc : Thread nD τ).loc main_arg0)) (m ((c.tc : Thread nD τ).loc main_arg1)) (m ((c.tc : Thread nD τ).loc main_arg2))
        (m ((c.tc : Thread nD τ).loc main_arg3)) ![2, 0, 0] Facts₀.slices_S4x5x131072_S1x5x131072_2_0_0 := by
  show StableHlo.after hostOps0 (fun b => m (c, b)) (Proc.devRef .tc main_v11) = _
  after_results
  rfl

theorem V_v13_plane : (V (F := Ideal) m c main_v13 : S5x131072.Idx → EReal)
    = plane (m ((c.tc : Thread nD τ).loc main_arg0)) (m ((c.tc : Thread nD τ).loc main_arg1)) (m ((c.tc : Thread nD τ).loc main_arg2))
        (m ((c.tc : Thread nD τ).loc main_arg3)) ![3, 0, 0] Facts₀.slices_S4x5x131072_S1x5x131072_3_0_0 := by
  show StableHlo.after hostOps0 (fun b => m (c, b)) (Proc.devRef .tc main_v13) = _
  after_results
  rfl

/-- Window 0's array when the region is entered: the first argument transposed. -/
theorem V_v7 : (V (F := Ideal) m c main_v7 : S5x131072.Idx → EReal)
    = fun i => m ((c.tc : Thread nD τ).loc main_arg0) (ValueIdx.ix2 (i 1) (i 0)) := by
  rw [V_v7_plane]
  funext i
  exact plane_apply _ _ _ _ 0 _ 0 rfl i

/-- Window 1's array when the region is entered: the second argument transposed. -/
theorem V_v9 : (V (F := Ideal) m c main_v9 : S5x131072.Idx → EReal)
    = fun i => m ((c.tc : Thread nD τ).loc main_arg1) (ValueIdx.ix2 (i 1) (i 0)) := by
  rw [V_v9_plane]
  funext i
  exact plane_apply _ _ _ _ 1 _ 1 rfl i

/-- Window 2's array when the region is entered: the third argument transposed. -/
theorem V_v11 : (V (F := Ideal) m c main_v11 : S5x131072.Idx → EReal)
    = fun i => m ((c.tc : Thread nD τ).loc main_arg2) (ValueIdx.ix2 (i 1) (i 0)) := by
  rw [V_v11_plane]
  funext i
  exact plane_apply _ _ _ _ 2 _ 2 rfl i

/-- Window 3's array when the region is entered: the fourth argument transposed. -/
theorem V_v13 : (V (F := Ideal) m c main_v13 : S5x131072.Idx → EReal)
    = fun i => m ((c.tc : Thread nD τ).loc main_arg3) (ValueIdx.ix2 (i 1) (i 0)) := by
  rw [V_v13_plane]
  funext i
  exact plane_apply _ _ _ _ 3 _ 3 rfl i

end Cert.KernelIdeal.Hand

end
-- ==== Proof.KTail.lean ====
/-
  The kernel program's four host operations after its region: the two per-core partial sums are added, from the
  initial value zero, and the total is divided by the word 0x49200000.

  At the extended reals a host sum over every axis is the initial value plus the sum of all entries; the index set of
  a [2, 1, 1] array is the two values of its first coordinate; and the zero word is the number zero.
-/
import proofs.«168670_j16604343566366_2_alg».proof.Proof.Gen.KernelIdeal.Launch
import Idealize.ShloMosaic.PureOps.Ideal.Laws
import Idealize.ShloMosaic.Lib.ValueIdx
import Idealize.ShloMosaic.Lib.StableHlo.Run
import Idealize.ShloMosaic.Lib.Tactic

noncomputable section

open scoped BigOperators

namespace Cert.KernelIdeal.Hand

open Idealize.ShloMosaic Idealize.ShloMosaic.TcCoe
open Idealize.SL Idealize.SL.Sem
open Cert.KernelIdeal Cert.KernelIdeal.Gen

/-- The index set of a [2, 1, 1] array is the two values of its first coordinate. -/
def idxEquiv211 : S2x1x1.Idx ≃ Fin 2 where
  toFun i := i 0
  invFun c := ValueIdx.ix3 c 0 0
  left_inv i := by
    funext a
    match a with
    | ⟨0, _⟩ => rfl
    | ⟨1, _⟩ => exact (Fin.eq_zero (i 1 : Fin 1)).symm
    | ⟨2, _⟩ => exact (Fin.eq_zero (i 2 : Fin 1)).symm
  right_inv _ := rfl

/-- The sum of all entries of a [2, 1, 1] array is the sum over its first coordinate. -/
theorem sum_idx211 (f : S2x1x1.Idx → EReal) : ∑ i, f i = ∑ c : Fin 2, f (ValueIdx.ix3 c 0 0) :=
  (Equiv.sum_comp idxEquiv211.symm f).symm

/-- The value of the host tail on a [2, 1, 1] array of partial sums: their sum divided by the word 0x49200000. -/
theorem tail_val (o : Vec Ideal S2x1x1 .f32) :
    Host.divf (F := Ideal) (Host.reduceAdd (F := Ideal) o (constant (F := Ideal) S_ .f32 0x00000000#32) Facts₀.reducesTo_S2x1x1_S_d0_1_2 Facts₀.h_S_) (constant (F := Ideal) S_ .f32 0x49200000#32)
      = fun _ => Ideal.div (∑ c : Fin 2, o (ValueIdx.ix3 c 0 0)) (Ideal.ofBits .f32 0x49200000#32) := by
  funext j
  show Ideal.div (Ideal.hostReduceAdd Facts₀.reducesTo_S2x1x1_S_d0_1_2 o (Ideal.ofBits .f32 0x00000000#32) j) (Ideal.ofBits .f32 0x49200000#32) = _
  rw [Ideal.hostReduceAdd_total _ (fun b => b.elim0) o _ j, Ideal.ofBits_zero_f32, zero_add, sum_idx211]

/-- What the four host operations after the region leave in the result buffer, from any contents W: the tail applied
    to W's array of partial sums. -/
theorem tail_read (W : Valuation τ sig (Elt Ideal)) :
    StableHlo.after (hostOps1 (F := Ideal)) W (Proc.devRef .tc main_v16)
      = Host.divf (F := Ideal) (Host.reduceAdd (F := Ideal) (W (Proc.devRef .tc main_v14)) (constant (F := Ideal) S_ .f32 0x00000000#32) Facts₀.reducesTo_S2x1x1_S_d0_1_2 Facts₀.h_S_) (constant (F := Ideal) S_ .f32 0x49200000#32) := by
  after_results

end Cert.KernelIdeal.Hand

end
-- ==== Proof.KIndex.lean ====
/-
  Which entries of its array a window's block reads.

  The grid is 2 × 2, walked in row-major order: point t = 2·c + i. Input window w (w = 0..3) has block [5, 32768] at
  block index (0, 2·c + i) = (0, t): its entry (r, j) is the array's entry (r, 32768·t + j). The output window has block
  [1, 1, 1] at block index (c, 0, 0) = (t / 2, 0, 0).
-/
import proofs.«168670_j16604343566366_2_alg».proof.Proof.KEntry
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

variable (m : (ℓ : Loc nD τ sig) → Buf (Elt F) ℓ)

/-- The input windows' block index at point t is (0, t). -/
theorem idx_in0 : ∀ t : Fin cfg0.N, win0_0.index t 0 = 0 ∧ win0_0.index t 1 = t.val :=
  (by decide +kernel : ∀ t : Fin grid0.N, win0_0.index t 0 = 0 ∧ win0_0.index t 1 = t.val)
theorem idx_in1 : ∀ t : Fin cfg0.N, win0_1.index t 0 = 0 ∧ win0_1.index t 1 = t.val :=
  (by decide +kernel : ∀ t : Fin grid0.N, win0_1.index t 0 = 0 ∧ win0_1.index t 1 = t.val)
theorem idx_in2 : ∀ t : Fin cfg0.N, win0_2.index t 0 = 0 ∧ win0_2.index t 1 = t.val :=
  (by decide +kernel : ∀ t : Fin grid0.N, win0_2.index t 0 = 0 ∧ win0_2.index t 1 = t.val)
theorem idx_in3 : ∀ t : Fin cfg0.N, win0_3.index t 0 = 0 ∧ win0_3.index t 1 = t.val :=
  (by decide +kernel : ∀ t : Fin grid0.N, win0_3.index t 0 = 0 ∧ win0_3.index t 1 = t.val)
/-- The output window's block index at point t is (t / 2, 0, 0). -/
theorem idx_out : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

/-- Sample number of lane j of the block at point t. -/
def smpT (t : Fin cfg0.N) (j : Fin 32768) : Fin 131072 :=
  ⟨t.val * 32768 + j.val, by have := lt_of_lt_of_eq t.isLt (show cfg0.N = 4 from N_0); have := j.isLt; omega⟩

/-- Entry (r, j) of input window 0's block at point t is entry (r, 32768·t + j) of its array. -/
theorem iblk0_apply (c : Dev nD) (t : Fin cfg0.N) (r : Fin 5) (j : Fin 32768) :
    (iblk m c 0 t : Vec F S5x32768 .f32) (ix2 r j) = (V m c main_v7 : Vec F S5x131072 .f32) (ix2 r (smpT t j)) := by
  have hi := idx_in0 t
  unfold iblk
  rw [View.read_apply]
  show V m c main_v7 _ = V m c main_v7 _
  refine congrArg (V m c main_v7) ?_
  funext a
  apply Fin.ext
  match a with
  | ⟨0, _⟩ => show win0_0.index t 0 * 5 + 1 * r.val = r.val; rw [hi.1]; omega
  | ⟨1, _⟩ => show win0_0.index t 1 * 32768 + 1 * j.val = t.val * 32768 + j.val; rw [hi.2]; omega

theorem iblk1_apply (c : Dev nD) (t : Fin cfg0.N) (r : Fin 5) (j : Fin 32768) :
    (iblk m c 1 t : Vec F S5x32768 .f32) (ix2 r j) = (V m c main_v9 : Vec F S5x131072 .f32) (ix2 r (smpT t j)) := by
  have hi := idx_in1 t
  unfold iblk
  rw [View.read_apply]
  show V m c main_v9 _ = V m c main_v9 _
  refine congrArg (V m c main_v9) ?_
  funext a
  apply Fin.ext
  match a with
  | ⟨0, _⟩ => show win0_1.index t 0 * 5 + 1 * r.val = r.val; rw [hi.1]; omega
  | ⟨1, _⟩ => show win0_1.index t 1 * 32768 + 1 * j.val = t.val * 32768 + j.val; rw [hi.2]; omega

theorem iblk2_apply (c : Dev nD) (t : Fin cfg0.N) (r : Fin 5) (j : Fin 32768) :
    (iblk m c 2 t : Vec F S5x32768 .f32) (ix2 r j) = (V m c main_v11 : Vec F S5x131072 .f32) (ix2 r (smpT t j)) := by
  have hi := idx_in2 t
  unfold iblk
  rw [View.read_apply]
  show V m c main_v11 _ = V m c main_v11 _
  refine congrArg (V m c main_v11) ?_
  funext a
  apply Fin.ext
  match a with
  | ⟨0, _⟩ => show win0_2.index t 0 * 5 + 1 * r.val = r.val; rw [hi.1]; omega
  | ⟨1, _⟩ => show win0_2.index t 1 * 32768 + 1 * j.val = t.val * 32768 + j.val; rw [hi.2]; omega

theorem iblk3_apply (c : Dev nD) (t : Fin cfg0.N) (r : Fin 5) (j : Fin 32768) :
    (iblk m c 3 t : Vec F S5x32768 .f32) (ix2 r j) = (V m c main_v13 : Vec F S5x131072 .f32) (ix2 r (smpT t j)) := by
  have hi := idx_in3 t
  unfold iblk
  rw [View.read_apply]
  show V m c main_v13 _ = V m c main_v13 _
  refine congrArg (V m c main_v13) ?_
  funext a
  apply Fin.ext
  match a with
  | ⟨0, _⟩ => show win0_3.index t 0 * 5 + 1 * r.val = r.val; rw [hi.1]; omega
  | ⟨1, _⟩ => show win0_3.index t 1 * 32768 + 1 * j.val = t.val * 32768 + j.val; rw [hi.2]; omega

end Cert.KernelIdeal.Hand

end
-- ==== Proof.KValue.lean ====
/-
  The kernel program's result, read off its run at the exact instance.

  Write B t for the sum, over the 32768 samples of the block staged at grid point t, of the sample's least assignment
  cost (the subset recurrence of the sample's 5 × 5 distance table). The scratch cell is reset at the even points and
  carried to the odd ones, so after point t it holds B t when t is even and B (t − 1) + B t when t is odd; the output
  block is a copy of the scratch cell and is written back at the odd points, point 2q + 1 into cell q of the [2, 1, 1]
  result. The lines after the region add the two cells and divide by the float 655360: that is Spec.kerVal.
-/
import proofs.«168670_j16604343566366_2_alg».proof.Proof.KPieces
import proofs.«168670_j16604343566366_2_alg».proof.Proof.PayVal
import proofs.«168670_j16604343566366_2_alg».proof.Proof.KArrays
import proofs.«168670_j16604343566366_2_alg».proof.Proof.KTail
import proofs.«168670_j16604343566366_2_alg».proof.Proof.KIndex
import proofs.«168670_j16604343566366_2_alg».proof.Proof.Spec
import Idealize.ShloMosaic.Lib.Pipeline.Value

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The four argument arrays of core c by coordinates (sample, source). -/
abbrev A0 (c : Dev nD) : Fin 131072 → Fin 5 → EReal := Cert.Spec.arr (m ((c.tc : Thread nD τ).loc main_arg0))
abbrev A1 (c : Dev nD) : Fin 131072 → Fin 5 → EReal := Cert.Spec.arr (m ((c.tc : Thread nD τ).loc main_arg1))
abbrev A2 (c : Dev nD) : Fin 131072 → Fin 5 → EReal := Cert.Spec.arr (m ((c.tc : Thread nD τ).loc main_arg2))
abbrev A3 (c : Dev nD) : Fin 131072 → Fin 5 → EReal := Cert.Spec.arr (m ((c.tc : Thread nD τ).loc main_arg3))

/-- B t: the least costs of the samples of the block at point t, summed. -/
def blockSum (c : Dev nD) (t : Fin cfg0.N) : EReal :=
  ∑ j : Fin 32768, Cert.Spec.hkDP (Cert.Spec.dist (A0 m c) (A1 m c) (A2 m c) (A3 m c) (smpT t j))

/-- Lane j of row k of a window's block at point t is the argument's entry (sample 32768·t + j, source k). -/
theorem rows0 (c : Dev nD) (t : Fin cfg0.N) (k : Fin 5) (j : Fin 32768) :
    row (iblk m c 0 t) k (ix2 0 j) = A0 m c (smpT t j) k := by
  rw [row_apply, iblk0_apply, V_v7]
  rfl
theorem rows1 (c : Dev nD) (t : Fin cfg0.N) (k : Fin 5) (j : Fin 32768) :
    row (iblk m c 1 t) k (ix2 0 j) = A1 m c (smpT t j) k := by
  rw [row_apply, iblk1_apply, V_v9]
  rfl
theorem rows2 (c : Dev nD) (t : Fin cfg0.N) (k : Fin 5) (j : Fin 32768) :
    row (iblk m c 2 t) k (ix2 0 j) = A2 m c (smpT t j) k := by
  rw [row_apply, iblk2_apply, V_v11]
  rfl
theorem rows3 (c : Dev nD) (t : Fin cfg0.N) (k : Fin 5) (j : Fin 32768) :
    row (iblk m c 3 t) k (ix2 0 j) = A3 m c (smpT t j) k := by
  rw [row_apply, iblk3_apply, V_v13]
  rfl

/-- One pass of the body over the blocks at point t adds B t to the scratch cell. -/
theorem step_eq (c : Dev nD) (t : Fin cfg0.N) (xs : Vec Ideal S1x1 .f32) :
    PayVal.accStep (row (iblk m c 0 t)) (row (iblk m c 1 t)) (row (iblk m c 2 t)) (row (iblk m c 3 t)) xs
      = fun i => xs i + blockSum m c t := by
  rw [PayVal.accStep_ideal]
  funext i
  refine congrArg (fun z => xs i + z) ?_
  unfold blockSum
  refine Finset.sum_congr rfl fun j _ => congrArg Cert.Spec.hkDP ?_
  funext a k
  rw [rows0, rows1, rows2, rows3]
  rfl

/-- The point before an odd point. -/
def prev (t : Fin cfg0.N) : Fin cfg0.N := ⟨t.val - 1, Nat.lt_of_le_of_lt (Nat.sub_le _ _) t.isLt⟩

/-- After an even point the scratch cell holds that point's block sum. -/
theorem scr_even (c : Dev nD) (t : Fin cfg0.N) (h0 : t.val % 2 = 0) :
    (outsAt0 m c t.val t.isLt).2 = fun _ => blockSum m c t := by
  rw [outsAt0_A m c t h0, sout0_A_0_eq, step_eq, PayVal.pay3_ideal]
  funext _
  exact zero_add _

/-- After an odd point it holds the two block sums of its pair. -/
theorem scr_odd (c : Dev nD) (t : Fin cfg0.N) (h0 : ¬t.val % 2 = 0) :
    (outsAt0 m c t.val t.isLt).2 = fun _ => blockSum m c (prev t) + blockSum m c t := by
  rw [outsAt0_B m c t h0, sout0_B_0_eq, step_eq]
  have hp : (prev t).val % 2 = 0 := by show (t.val - 1) % 2 = 0; omega
  have := scr_even m c (prev t) hp
  funext _
  exact congrArg (fun z => z + blockSum m c t) (congrFun this _)

/-- The output block after an odd point is a copy of the scratch cell. -/
theorem out_odd (c : Dev nD) (t : Fin cfg0.N) (h0 : ¬t.val % 2 = 0) :
    (outsAt0 m c t.val t.isLt).1 (ix3 0 0 0) = blockSum m c (prev t) + blockSum m c t := by
  have hs := scr_odd m c t h0
  rw [outsAt0_B m c t h0] at hs ⊢
  rw [out0_B_4_eq]
  exact (PayVal.pay2_ideal _).trans (congrFun hs _)

/-- Cell q of the result: the two block sums of pair q. -/
def cell (c : Dev nD) (q : Fin 2) : EReal :=
  blockSum m c ⟨2 * q.val, by have := q.isLt; rw [show cfg0.N = 4 from N_0]; omega⟩
    + blockSum m c ⟨2 * q.val + 1, by have := q.isLt; rw [show cfg0.N = 4 from N_0]; omega⟩

/-- The [2, 1, 1] result array after the region. -/
def G (c : Dev nD) : Vec Ideal S2x1x1 .f32 := fun i => cell m c ⟨(i 0).val, (i 0).isLt⟩

/-- An index of the [1, 1, 1] block is its only one. -/
theorem idx111 (j : S1x1x1.Idx) : j = ix3 0 0 0 := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- Cell t / 2 is the pair ending at the odd point t. -/
theorem cell_of_odd (c : Dev nD) (t : Fin cfg0.N) (h1 : t.val % 2 = 1) (q : Fin 2) (hq : q.val = t.val / 2) :
    cell m c q = blockSum m c (prev t) + blockSum m c t := by
  unfold cell
  refine congrArg₂ (· + ·) (congrArg (blockSum m c) (Fin.ext ?_)) (congrArg (blockSum m c) (Fin.ext ?_))
  · show 2 * q.val = t.val - 1; omega
  · show 2 * q.val + 1 = t.val; omega

/-- An index of the result array is in point t's block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v14).slice (win0_4.rect t)).set ↔ _
  rw [View.set_slice_whole, Rect.mem_set_unit]
  exact Iff.rfl

/-- What an odd point writes back is its cell of G. -/
theorem flushed_eq (c : Dev nD) (t : Fin cfg0.N) (hf : (cfg0.win 4).flush t = true) :
    (dats m 0 c).flushed 4 t = ((cfg0.win 4).blk t).view.read (Elt Ideal) (G m c) := by
  have h1 : t.val % 2 = 1 := (flush0_4 t).mp hf
  have e0 : win0_4.index t 0 = t.val / 2 := (idx_out t).1
  show (cfg0.win 4).cut (grid0.coords t) ((dats m 0 c).after 4 t) = _
  rw [after0_4]
  funext j
  show (outsAt0 m c t.val t.isLt).1 j = G m c (((cfg0.win 4).blk t).view.emb j)
  rw [idx111 j, out_odd m c t (by omega)]
  refine (cell_of_odd m c t h1 _ ?_).symm
  show win0_4.index t 0 * 1 + 1 * 0 = t.val / 2
  omega

/-- Every cell of the result array is some odd point's block. -/
theorem cover (c : Dev nD) (i : S2x1x1.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hN : cfg0.N = 4 := N_0
  have hlt : 2 * (i 0).val + 1 < cfg0.N := by rw [hN]; omega
  have e0 : win0_4.index ⟨2 * (i 0).val + 1, hlt⟩ 0 = (2 * (i 0).val + 1) / 2 := (idx_out ⟨2 * (i 0).val + 1, hlt⟩).1
  have e1 : win0_4.index ⟨2 * (i 0).val + 1, hlt⟩ 1 = 0 := (idx_out ⟨2 * (i 0).val + 1, hlt⟩).2.1
  have e2 : win0_4.index ⟨2 * (i 0).val + 1, hlt⟩ 2 = 0 := (idx_out ⟨2 * (i 0).val + 1, hlt⟩).2.2
  refine ⟨⟨2 * (i 0).val + 1, hlt⟩, (flush0_4 _).mpr (by show (2 * (i 0).val + 1) % 2 = 1; omega), ?_⟩
  rw [mem_blk4]
  intro a
  match a with
  | ⟨0, _⟩ => show win0_4.index ⟨2 * (i 0).val + 1, hlt⟩ 0 * 1 ≤ (i 0).val ∧ (i 0).val < win0_4.index ⟨2 * (i 0).val + 1, hlt⟩ 0 * 1 + 1
              rw [e0]; omega
  | ⟨1, _⟩ => show win0_4.index ⟨2 * (i 0).val + 1, hlt⟩ 1 * 1 ≤ (i 1).val ∧ (i 1).val < win0_4.index ⟨2 * (i 0).val + 1, hlt⟩ 1 * 1 + 1
              rw [e1]; omega
  | ⟨2, _⟩ => show win0_4.index ⟨2 * (i 0).val + 1, hlt⟩ 2 * 1 ≤ (i 2).val ∧ (i 2).val < win0_4.index ⟨2 * (i 0).val + 1, hlt⟩ 2 * 1 + 1
              rw [e2]; omega

/-- So the result array ends holding G. -/
theorem final (c : Dev nD) : (dats m 0 c).arrAt 4 cfg0.N = G m c :=
  (dats m 0 c).arrAt_eq_of_cover 4 (G m c) (flushed_eq m c) (cover c)

/-- A cell in the specification's spelling. -/
theorem cell_eq (c : Dev nD) (q : Fin 2) :
    cell m c q = (∑ j : Fin 32768, Cert.Spec.hkDP (Cert.Spec.dist (A0 m c) (A1 m c) (A2 m c) (A3 m c) (Cert.Spec.smp q 0 j)))
      + (∑ j : Fin 32768, Cert.Spec.hkDP (Cert.Spec.dist (A0 m c) (A1 m c) (A2 m c) (A3 m c) (Cert.Spec.smp q 1 j))) := rfl

/-- The specification's value is the two cells added and divided. -/
theorem kerVal_cells (c : Dev nD) :
    Cert.Spec.kerVal (A0 m c) (A1 m c) (A2 m c) (A3 m c)
      = Ideal.div (∑ q : Fin 2, cell m c q) (Ideal.ofBits .f32 0x49200000#32) := rfl

/-- The lines after the region turn G into the specification's value. -/
theorem tail_eq (c : Dev nD) :
    Pipeline.afterTail₀ cfgs (dats m) 0 (V0 m) [hostOps1] c main_v16
      = fun _ => Cert.Spec.kerVal (A0 m c) (A1 m c) (A2 m c) (A3 m c) := by
  unfold Pipeline.afterTail₀
  show StableHlo.after (hostOps1 (F := Ideal)) _ (Proc.devRef .tc main_v16) = _
  rw [tail_read]
  rw [show Pipeline.withArrays (cfgs 0).spec c (V0 m c) (fun w => (dats m 0 c).arrAt w (cfgs 0).N) (Proc.devRef .tc main_v14) = G m c from
    (Pipeline.withArrays_arr spec0 launch0.win.arr_inj c _ _ 4).trans (final m c)]
  rw [tail_val, kerVal_cells]
  rfl

/-- The kernel program's run, read: its result at the specification's value, its arguments unchanged. -/
theorem value_run : θ_run (defs (F := Ideal)) (onTc (τ := τ) (main (F := Ideal))) ⟨m, fun _ => 0, ρ⟩ (fun r => ∀ c : Dev nD,
      r.2.mem ((c.tc : Thread nD τ).loc main_v16) = (fun _ => Cert.Spec.kerVal (A0 m c) (A1 m c) (A2 m c) (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_v16 (Pipeline.mem_restRefs_of main_v16 rfl (by decide))).trans (tail_eq m c),
      kept_args m r h c⟩) (run_main m ρ)

end Cert.KernelIdeal.Hand

end
-- ==== Proof.RefOps.lean ====
import proofs.«168670_j16604343566366_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 42 operations, in order. -/
abbrev ops : List (HloOp τ sig (Elt F)) :=
  [ StableHlo.nullary main_c (fun i => lit0 (S120x5.rowMajor i)),
    StableHlo.unary main_arg1 main_v0 (Host.cos : (⟨S131072x5, .f32⟩ : BufTy).Contents (Elt F) → (⟨S131072x5, .f32⟩ : BufTy).Contents (Elt F)),
    StableHlo.binary main_v0 main_arg3 main_v1 (mulf : (⟨S131072x5, .f32⟩ : BufTy).Contents (Elt F) → (⟨S131072x5, .f32⟩ : BufTy).Contents (Elt F) → (⟨S131072x5, .f32⟩ : BufTy).Contents (Elt F)),
    StableHlo.unary main_arg1 main_v2 (Host.sin : (⟨S131072x5, .f32⟩ : BufTy).Contents (Elt F) → (⟨S131072x5, .f32⟩ : BufTy).Contents (Elt F)),
    StableHlo.binary main_v2 main_arg3 main_v3 (mulf : (⟨S131072x5, .f32⟩ : BufTy).Contents (Elt F) → (⟨S131072x5, .f32⟩ : BufTy).Contents (Elt F) → (⟨S131072x5, .f32⟩ : BufTy).Contents (Elt F)),
    StableHlo.unary main_v1 main_v4 (broadcastInDim S131072x5x1 ![0, 1] bcast_S131072x5_S131072x5x1_0_1 : (⟨S131072x5, .f32⟩ : BufTy).Contents (Elt F) → (⟨S131072x5x1, .f32⟩ : BufTy).Contents (Elt F)),
    StableHlo.unary main_v3 main_v5 (broadcastInDim S131072x5x1 ![0, 1] bcast_S131072x5_S131072x5x1_0_1 : (⟨S131072x5, .f32⟩ : BufTy).Contents (Elt F) → (⟨S131072x5x1, .f32⟩ : BufTy).Contents (Elt F)),
    StableHlo.binary main_v4 main_v5 main_v6 ((fun a b => concatenate S131072x5x2 2 [⟨S131072x5x1, a⟩, ⟨S131072x5x1, b⟩] concatenates_S131072x5x1_S131072x5x1_S131072x5x2_d2) : (⟨S131072x5x1, .f32⟩ : BufTy).Contents (Elt F) → (⟨S131072x5x1, .f32⟩ : BufTy).Contents (Elt F) → (⟨S131072x5x2, .f32⟩ : BufTy).Contents (Elt F)),
    StableHlo.unary main_arg0 main_v7 (Host.cos : (⟨S131072x5, .f32⟩ : BufTy).Contents (Elt F) → (⟨S131072x5, .f32⟩ : BufTy).Contents (Elt F)),
    StableHlo.binary main_v7 main_arg2 main_v8 (mulf : (⟨S131072x5, .f32⟩ : BufTy).Contents (Elt F) → (⟨S131072x5, .f32⟩ : BufTy).Contents (Elt F) → (⟨S131072x5, .f32⟩ : BufTy).Contents (Elt F)),
    StableHlo.unary main_arg0 main_v9 (Host.sin : (⟨S131072x5, .f32⟩ : BufTy).Contents (Elt F) → (⟨S131072x5, .f32⟩ : BufTy).Contents (Elt F)),
    StableHlo.binary main_v9 main_arg2 main_v10 (mulf : (⟨S131072x5, .f32⟩ : BufTy).Contents (Elt F) → (⟨S131072x5, .f32⟩ : BufTy).Contents (Elt F) → (⟨S131072x5, .f32⟩ : BufTy).Contents (Elt F)),
    StableHlo.unary main_v8 main_v11 (broadcastInDim S131072x5x1 ![0, 1] bcast_S131072x5_S131072x5x1_0_1 : (⟨S131072x5, .f32⟩ : BufTy).Contents (Elt F) → (⟨S131072x5x1, .f32⟩ : BufTy).Contents (Elt F)),
    StableHlo.unary main_v10 main_v12 (broadcastInDim S131072x5x1 ![0, 1] bcast_S131072x5_S131072x5x1_0_1 : (⟨S131072x5, .f32⟩ : BufTy).Contents (Elt F) → (⟨S131072x5x1, .f32⟩ : BufTy).Contents (Elt F)),
    StableHlo.binary main_v11 main_v12 main_v13 ((fun a b => concatenate S131072x5x2 2 [⟨S131072x5x1, a⟩, ⟨S131072x5x1, b⟩] concatenates_S131072x5x1_S131072x5x1_S131072x5x2_d2) : (⟨S131072x5x1, .f32⟩ : BufTy).Contents (Elt F) → (⟨S131072x5x1, .f32⟩ : BufTy).Contents (Elt F) → (⟨S131072x5x2, .f32⟩ : BufTy).Contents (Elt F)),
    StableHlo.nullary main_c_0 (constantI S_ 32 0#32),
    StableHlo.unary main_c_0 main_v14 (broadcastInDim S120x5 ![] bcast_S_S120x5 : (⟨S_, .i32⟩ : BufTy).Contents (Elt F) → (⟨S120x5, .i32⟩ : BufTy).Contents (Elt F)),
    StableHlo.binary main_c main_v14 main_v15 (cmpi .slt : (⟨S120x5, .i32⟩ : BufTy).Contents (Elt F) → (⟨S120x5, .i32⟩ : BufTy).Contents (Elt F) → (⟨S120x5, .i1⟩ : BufTy).Contents (Elt F)),
    StableHlo.nullary main_c_1 (constantI S_ 32 5#32),
    StableHlo.unary main_c_1 main_v16 (broadcastInDim S120x5 ![] bcast_S_S120x5 : (⟨S_, .i32⟩ : BufTy).Contents (Elt F) → (⟨S120x5, .i32⟩ : BufTy).Contents (Elt F)),
    StableHlo.binary main_c main_v16 main_v17 (addi : (⟨S120x5, .i32⟩ : BufTy).Contents (Elt F) → (⟨S120x5, .i32⟩ : BufTy).Contents (Elt F) → (⟨S120x5, .i32⟩ : BufTy).Contents (Elt F)),
    StableHlo.ternary main_v15 main_v17 main_c main_v18 (select : (⟨S120x5, .i1⟩ : BufTy).Contents (Elt F) → (⟨S120x5, .i32⟩ : BufTy).Contents (Elt F) → (⟨S120x5, .i32⟩ : BufTy).Contents (Elt F) → (⟨S120x5, .i32⟩ : BufTy).Contents (Elt F)),
    StableHlo.unary main_v18 main_v19 (broadcastInDim S120x5x1 ![0, 1] bcast_S120x5_S120x5x1_0_1 : (⟨S120x5, .i32⟩ : BufTy).Contents (Elt F) → (⟨S120x5x1, .i32⟩ : BufTy).Contents (Elt F)),
    StableHlo.binary main_v13 main_v19 main_v20 ((fun x i => Host.gather gather_S131072x5x2_S120x5x1_S131072x120x5x2_03_1_n_n_1_2_13107212 x i) : (⟨S131072x5x2, .f32⟩ : BufTy).Contents (Elt F) → (⟨S120x5x1, .i32⟩ : BufTy).Contents (Elt F) → (⟨S131072x120x5x2, .f32⟩ : BufTy).Contents (Elt F)),
    StableHlo.unary main_v6 main_v21 (broadcastInDim S131072x1x5x2 ![0, 2, 3] bcast_S131072x5x2_S131072x1x5x2_0_2_3 : (⟨S131072x5x2, .f32⟩ : BufTy).Contents (Elt F) → (⟨S131072x1x5x2, .f32⟩ : BufTy).Contents (Elt F)),
    StableHlo.unary main_v21 main_v22 (broadcastInDim S131072x120x5x2 ![0, 1, 2, 3] bcast_S131072x1x5x2_S131072x120x5x2_0_1_2_3 : (⟨S131072x1x5x2, .f32⟩ : BufTy).Contents (Elt F) → (⟨S131072x120x5x2, .f32⟩ : BufTy).Contents (Elt F)),
    StableHlo.binary main_v22 main_v20 main_v23 (subf : (⟨S131072x120x5x2, .f32⟩ : BufTy).Contents (Elt F) → (⟨S131072x120x5x2, .f32⟩ : BufTy).Contents (Elt F) → (⟨S131072x120x5x2, .f32⟩ : BufTy).Contents (Elt F)),
    StableHlo.binary main_v23 main_v23 main_v24 (mulf : (⟨S131072x120x5x2, .f32⟩ : BufTy).Contents (Elt F) → (⟨S131072x120x5x2, .f32⟩ : BufTy).Contents (Elt F) → (⟨S131072x120x5x2, .f32⟩ : BufTy).Contents (Elt F)),
    StableHlo.nullary main_cst (constant S_ .f32 0x00000000#32),
    StableHlo.binary main_v24 main_cst main_v25 ((fun x v => Host.reduceAdd x v reducesTo_S131072x120x5x2_S131072x120x5_d3 h_S_) : (⟨S131072x120x5x2, .f32⟩ : BufTy).Contents (Elt F) → (⟨S_, .f32⟩ : BufTy).Contents (Elt F) → (⟨S131072x120x5, .f32⟩ : BufTy).Contents (Elt F)),
    StableHlo.unary main_v25 main_v26 (Host.sqrt : (⟨S131072x120x5, .f32⟩ : BufTy).Contents (Elt F) → (⟨S131072x120x5, .f32⟩ : BufTy).Contents (Elt F)),
    StableHlo.nullary main_cst_2 (constant S_ .f32 0x00000000#32),
    StableHlo.binary main_v26 main_cst_2 main_v27 ((fun x v => Host.reduceAdd x v reducesTo_S131072x120x5_S131072x120_d2 h_S_) : (⟨S131072x120x5, .f32⟩ : BufTy).Contents (Elt F) → (⟨S_, .f32⟩ : BufTy).Contents (Elt F) → (⟨S131072x120, .f32⟩ : BufTy).Contents (Elt F)),
    StableHlo.nullary main_cst_3 (constant S_ .f32 0x40A00000#32),
    StableHlo.unary main_cst_3 main_v28 (broadcastInDim S131072x120 ![] bcast_S_S131072x120 : (⟨S_, .f32⟩ : BufTy).Contents (Elt F) → (⟨S131072x120, .f32⟩ : BufTy).Contents (Elt F)),
    StableHlo.binary main_v27 main_v28 main_v29 (Host.divf : (⟨S131072x120, .f32⟩ : BufTy).Contents (Elt F) → (⟨S131072x120, .f32⟩ : BufTy).Contents (Elt F) → (⟨S131072x120, .f32⟩ : BufTy).Contents (Elt F)),
    StableHlo.nullary main_cst_4 (constant S_ .f32 0x7F800000#32),
    StableHlo.binary main_v29 main_cst_4 main_v30 ((fun x v => Host.reduce FloatOps.minimumf x v reducesTo_S131072x120_S131072_d1 h_S_) : (⟨S131072x120, .f32⟩ : BufTy).Contents (Elt F) → (⟨S_, .f32⟩ : BufTy).Contents (Elt F) → (⟨S131072, .f32⟩ : BufTy).Contents (Elt F)),
    StableHlo.nullary main_cst_5 (constant S_ .f32 0x00000000#32),
    StableHlo.binary main_v30 main_cst_5 main_v31 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    StableHlo.nullary main_cst_6 (constant S_ .f32 0x48000000#32),
    StableHlo.binary main_v31 main_cst_6 main_v32 (Host.divf : (⟨S_, .f32⟩ : BufTy).Contents (Elt F) → (⟨S_, .f32⟩ : BufTy).Contents (Elt F) → (⟨S_, .f32⟩ : BufTy).Contents (Elt F)) ]

/-- The buffer each operation writes, in order. -/
abbrev ws : List (Ref sig .tc) :=
  [ main_c, main_v0, main_v1, main_v2, main_v3, main_v4, main_v5, main_v6, main_v7, main_v8, main_v9, main_v10, main_v11, main_v12, main_v13, main_c_0, main_v14, main_v15, main_c_1, main_v16, main_v17, main_v18, main_v19, main_v20, main_v21, main_v22, main_v23, main_v24, main_cst, main_v25, main_v26, main_cst_2, main_v27, main_cst_3, main_v28, main_v29, main_cst_4, main_v30, main_cst_5, main_v31, main_cst_6, main_v32 ]

end Cert.ReferenceIdeal.Hand

end
-- ==== Proof.RefStages.lean ====
import proofs.«168670_j16604343566366_2_alg».proof.Proof.Gen.ReferenceIdeal

/-!
# The reference's stages as functions of its arguments

The reference's operations, composed: each definition below is the contents of one of the program's buffers as a
function of the argument arrays, over any float values. `coords ang dst` is the array of plane coordinates
(cos ang · dst, sin ang · dst) of the sources in polar form; `tabIdx` is the table of permutations after its index
normalisation (a negative entry has 5 added), as start indices; `gath` gathers the predicted coordinates by the table,
`tgt` repeats the target coordinates for each of the table's rows; then the squared differences, their sum over the
two coordinates, the square root, the sum over the five targets, the division by 5, the least over the table's rows,
the sum over the samples and the division by their number.
-/

noncomputable section

namespace Cert.ReferenceIdeal.Hand

open Cert.ReferenceIdeal Cert.ReferenceIdeal.Gen Idealize.ShloMosaic

variable {F : FTy → Type} [FloatOps F]

/-- cos ang · dst, elementwise. -/
def polX (ang dst : (⟨S131072x5, .f32⟩ : BufTy).Contents (Elt F)) : (⟨S131072x5, .f32⟩ : BufTy).Contents (Elt F) := mulf (Host.cos ang) dst

/-- sin ang · dst, elementwise. -/
def polY (ang dst : (⟨S131072x5, .f32⟩ : BufTy).Contents (Elt F)) : (⟨S131072x5, .f32⟩ : BufTy).Contents (Elt F) := mulf (Host.sin ang) dst

/-- The plane coordinates of the sources given in polar form: entry (n, k, 0) is cos ang · dst at (n, k), entry
    (n, k, 1) is sin ang · dst there. -/
def coords (ang dst : (⟨S131072x5, .f32⟩ : BufTy).Contents (Elt F)) : (⟨S131072x5x2, .f32⟩ : BufTy).Contents (Elt F) :=
  concatenate S131072x5x2 2
    [⟨S131072x5x1, broadcastInDim S131072x5x1 ![0, 1] bcast_S131072x5_S131072x5x1_0_1 (polX ang dst)⟩,
     ⟨S131072x5x1, broadcastInDim S131072x5x1 ![0, 1] bcast_S131072x5_S131072x5x1_0_1 (polY ang dst)⟩]
    concatenates_S131072x5x1_S131072x5x1_S131072x5x2_d2

/-- The table of permutations as the program holds it: 120 rows of 5 words. -/
def tab : IVec S120x5 32 := fun i => lit0 (S120x5.rowMajor i)

/-- The all-zero array the table is compared with. -/
def tabZero : IVec S120x5 32 := broadcastInDim S120x5 ![] bcast_S_S120x5 (constantI S_ 32 0#32)

/-- The all-five array added to the table's negative entries. -/
def tabFive : IVec S120x5 32 := broadcastInDim S120x5 ![] bcast_S_S120x5 (constantI S_ 32 5#32)

/-- The table after index normalisation: an entry below zero has 5 added. -/
def tabN : IVec S120x5 32 := select (cmpi .slt tab tabZero) (addi tab tabFive) tab

/-- The normalised table as start indices, one index vector of length one per entry. -/
def tabIdx : IVec S120x5x1 32 := broadcastInDim S120x5x1 ![0, 1] bcast_S120x5_S120x5x1_0_1 tabN

/-- The predicted coordinates gathered by the table: entry (n, p, m, d) is the prediction the table's row p assigns to
    target m, coordinate d, of sample n. -/
def gath (pc : (⟨S131072x5x2, .f32⟩ : BufTy).Contents (Elt F)) : (⟨S131072x120x5x2, .f32⟩ : BufTy).Contents (Elt F) :=
  Host.gather gather_S131072x5x2_S120x5x1_S131072x120x5x2_03_1_n_n_1_2_13107212 pc tabIdx

/-- The target coordinates repeated for each row of the table. -/
def tgt (tc : (⟨S131072x5x2, .f32⟩ : BufTy).Contents (Elt F)) : (⟨S131072x120x5x2, .f32⟩ : BufTy).Contents (Elt F) :=
  broadcastInDim S131072x120x5x2 ![0, 1, 2, 3] bcast_S131072x1x5x2_S131072x120x5x2_0_1_2_3
    (broadcastInDim S131072x1x5x2 ![0, 2, 3] bcast_S131072x5x2_S131072x1x5x2_0_2_3 tc)

/-- The difference target − prediction, per coordinate. -/
def dif (tc pc : (⟨S131072x5x2, .f32⟩ : BufTy).Contents (Elt F)) : (⟨S131072x120x5x2, .f32⟩ : BufTy).Contents (Elt F) := subf (tgt tc) (gath pc)

/-- Its square. -/
def sqd (tc pc : (⟨S131072x5x2, .f32⟩ : BufTy).Contents (Elt F)) : (⟨S131072x120x5x2, .f32⟩ : BufTy).Contents (Elt F) := mulf (dif tc pc) (dif tc pc)

/-- The squared distance: the squares summed over the two coordinates. -/
def dst2 (tc pc : (⟨S131072x5x2, .f32⟩ : BufTy).Contents (Elt F)) : (⟨S131072x120x5, .f32⟩ : BufTy).Contents (Elt F) :=
  Host.reduceAdd (sqd tc pc) (constant S_ .f32 0x00000000#32) reducesTo_S131072x120x5x2_S131072x120x5_d3 h_S_

/-- The distance. -/
def dsts (tc pc : (⟨S131072x5x2, .f32⟩ : BufTy).Contents (Elt F)) : (⟨S131072x120x5, .f32⟩ : BufTy).Contents (Elt F) := Host.sqrt (dst2 tc pc)

/-- The cost of each row of the table: the distances summed over the five targets. -/
def costs (tc pc : (⟨S131072x5x2, .f32⟩ : BufTy).Contents (Elt F)) : (⟨S131072x120, .f32⟩ : BufTy).Contents (Elt F) :=
  Host.reduceAdd (dsts tc pc) (constant S_ .f32 0x00000000#32) reducesTo_S131072x120x5_S131072x120_d2 h_S_

/-- The array of fives the costs are divided by. -/
def fives : (⟨S131072x120, .f32⟩ : BufTy).Contents (Elt F) := broadcastInDim S131072x120 ![] bcast_S_S131072x120 (constant S_ .f32 0x40A00000#32)

/-- The mean cost of each row. -/
def mcosts (tc pc : (⟨S131072x5x2, .f32⟩ : BufTy).Contents (Elt F)) : (⟨S131072x120, .f32⟩ : BufTy).Contents (Elt F) := Host.divf (costs tc pc) fives

/-- The least mean cost over the table's rows, per sample. -/
def best (tc pc : (⟨S131072x5x2, .f32⟩ : BufTy).Contents (Elt F)) : (⟨S131072, .f32⟩ : BufTy).Contents (Elt F) :=
  Host.reduce FloatOps.minimumf (mcosts tc pc) (constant S_ .f32 0x7F800000#32) reducesTo_S131072x120_S131072_d1 h_S_

/-- Its sum over the samples. -/
def total (tc pc : (⟨S131072x5x2, .f32⟩ : BufTy).Contents (Elt F)) : (⟨S_, .f32⟩ : BufTy).Contents (Elt F) :=
  Host.reduceAdd (best tc pc) (constant S_ .f32 0x00000000#32) reducesTo_S131072_S_d0 h_S_

/-- What the reference computes from its four arguments: predicted angles a0, target angles a1, predicted distances
    a2, target distances a3. -/
def refTerm (a0 a1 a2 a3 : (⟨S131072x5, .f32⟩ : BufTy).Contents (Elt F)) : (⟨S_, .f32⟩ : BufTy).Contents (Elt F) :=
  Host.divf (total (coords a1 a3) (coords a0 a2)) (constant S_ .f32 0x48000000#32)

end Cert.ReferenceIdeal.Hand

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefRun.lean ====
import proofs.«168670_j16604343566366_2_alg».proof.Proof.RefOps
import proofs.«168670_j16604343566366_2_alg».proof.Proof.RefStages
import proofs.«168670_j16604343566366_2_alg».proof.Proof.LibAfterAssign

/-!
# The reference's run

The reference's @main is a straight line of 42 operations in single-assignment form. Every weakly fair execution
terminates with each buffer at the fold of the operations over the launch contents (`StableHlo.run_seq`); read one
operation at a time, in program order, the fold at each buffer is the stage of `RefStages` that the operation computes,
and at the result it is `refTerm` of the four arguments, which no operation writes.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., unary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub ..⟩

/-- Single assignment: the k-th operation writes exactly the k-th buffer of `ws`. -/
theorem writesAre : WritesAre (ops : List (HloOp τ sig (Elt F))) ws := by
  repeat' (first | exact trivial | refine And.intro rfl ?_)

section Fold

variable (V : Valuation τ sig (Elt F))

/-! ## The arguments are not written -/

theorem at_arg0 : after (ops (F := F)) V (Proc.devRef (τ := τ) .tc main_arg0) = V (Proc.devRef (τ := τ) .tc main_arg0) := after_of_not_written writesAre V (by decide)
theorem at_arg1 : after (ops (F := F)) V (Proc.devRef (τ := τ) .tc main_arg1) = V (Proc.devRef (τ := τ) .tc main_arg1) := after_of_not_written writesAre V (by decide)
theorem at_arg2 : after (ops (F := F)) V (Proc.devRef (τ := τ) .tc main_arg2) = V (Proc.devRef (τ := τ) .tc main_arg2) := after_of_not_written writesAre V (by decide)
theorem at_arg3 : after (ops (F := F)) V (Proc.devRef (τ := τ) .tc main_arg3) = V (Proc.devRef (τ := τ) .tc main_arg3) := after_of_not_written writesAre V (by decide)

/-! ## The target coordinates -/

theorem at_v0 : after (ops (F := F)) V (Proc.devRef (τ := τ) .tc main_v0) = Host.cos (V (Proc.devRef (τ := τ) .tc main_arg1)) := by
  rw [after_unary writesAre 1 rfl V (by decide) (by decide), at_arg1]
theorem at_v1 : after (ops (F := F)) V (Proc.devRef (τ := τ) .tc main_v1) = polX (V (Proc.devRef (τ := τ) .tc main_arg1)) (V (Proc.devRef (τ := τ) .tc main_arg3)) := by
  rw [after_binary writesAre 2 rfl V (by decide) (by decide) (by decide), at_v0, at_arg3]; rfl
theorem at_v2 : after (ops (F := F)) V (Proc.devRef (τ := τ) .tc main_v2) = Host.sin (V (Proc.devRef (τ := τ) .tc main_arg1)) := by
  rw [after_unary writesAre 3 rfl V (by decide) (by decide), at_arg1]
theorem at_v3 : after (ops (F := F)) V (Proc.devRef (τ := τ) .tc main_v3) = polY (V (Proc.devRef (τ := τ) .tc main_arg1)) (V (Proc.devRef (τ := τ) .tc main_arg3)) := by
  rw [after_binary writesAre 4 rfl V (by decide) (by decide) (by decide), at_v2, at_arg3]; rfl
theorem at_v4 : after (ops (F := F)) V (Proc.devRef (τ := τ) .tc main_v4) = broadcastInDim S131072x5x1 ![0, 1] bcast_S131072x5_S131072x5x1_0_1 (polX (V (Proc.devRef (τ := τ) .tc main_arg1)) (V (Proc.devRef (τ := τ) .tc main_arg3))) := by
  rw [after_unary writesAre 5 rfl V (by decide) (by decide), at_v1]
theorem at_v5 : after (ops (F := F)) V (Proc.devRef (τ := τ) .tc main_v5) = broadcastInDim S131072x5x1 ![0, 1] bcast_S131072x5_S131072x5x1_0_1 (polY (V (Proc.devRef (τ := τ) .tc main_arg1)) (V (Proc.devRef (τ := τ) .tc main_arg3))) := by
  rw [after_unary writesAre 6 rfl V (by decide) (by decide), at_v3]
theorem at_v6 : after (ops (F := F)) V (Proc.devRef (τ := τ) .tc main_v6) = coords (V (Proc.devRef (τ := τ) .tc main_arg1)) (V (Proc.devRef (τ := τ) .tc main_arg3)) := by
  rw [after_binary writesAre 7 rfl V (by decide) (by decide) (by decide), at_v4, at_v5]; rfl

/-! ## The predicted coordinates -/

theorem at_v7 : after (ops (F := F)) V (Proc.devRef (τ := τ) .tc main_v7) = Host.cos (V (Proc.devRef (τ := τ) .tc main_arg0)) := by
  rw [after_unary writesAre 8 rfl V (by decide) (by decide), at_arg0]
theorem at_v8 : after (ops (F := F)) V (Proc.devRef (τ := τ) .tc main_v8) = polX (V (Proc.devRef (τ := τ) .tc main_arg0)) (V (Proc.devRef (τ := τ) .tc main_arg2)) := by
  rw [after_binary writesAre 9 rfl V (by decide) (by decide) (by decide), at_v7, at_arg2]; rfl
theorem at_v9 : after (ops (F := F)) V (Proc.devRef (τ := τ) .tc main_v9) = Host.sin (V (Proc.devRef (τ := τ) .tc main_arg0)) := by
  rw [after_unary writesAre 10 rfl V (by decide) (by decide), at_arg0]
theorem at_v10 : after (ops (F := F)) V (Proc.devRef (τ := τ) .tc main_v10) = polY (V (Proc.devRef (τ := τ) .tc main_arg0)) (V (Proc.devRef (τ := τ) .tc main_arg2)) := by
  rw [after_binary writesAre 11 rfl V (by decide) (by decide) (by decide), at_v9, at_arg2]; rfl
theorem at_v11 : after (ops (F := F)) V (Proc.devRef (τ := τ) .tc main_v11) = broadcastInDim S131072x5x1 ![0, 1] bcast_S131072x5_S131072x5x1_0_1 (polX (V (Proc.devRef (τ := τ) .tc main_arg0)) (V (Proc.devRef (τ := τ) .tc main_arg2))) := by
  rw [after_unary writesAre 12 rfl V (by decide) (by decide), at_v8]
theorem at_v12 : after (ops (F := F)) V (Proc.devRef (τ := τ) .tc main_v12) = broadcastInDim S131072x5x1 ![0, 1] bcast_S131072x5_S131072x5x1_0_1 (polY (V (Proc.devRef (τ := τ) .tc main_arg0)) (V (Proc.devRef (τ := τ) .tc main_arg2))) := by
  rw [after_unary writesAre 13 rfl V (by decide) (by decide), at_v10]
theorem at_v13 : after (ops (F := F)) V (Proc.devRef (τ := τ) .tc main_v13) = coords (V (Proc.devRef (τ := τ) .tc main_arg0)) (V (Proc.devRef (τ := τ) .tc main_arg2)) := by
  rw [after_binary writesAre 14 rfl V (by decide) (by decide) (by decide), at_v11, at_v12]; rfl

/-! ## The table of permutations, normalised, as start indices -/

theorem at_c : after (ops (F := F)) V (Proc.devRef (τ := τ) .tc main_c) = (tab : IVec S120x5 32) := after_nullary writesAre 0 rfl V (by decide)
theorem at_c_0 : after (ops (F := F)) V (Proc.devRef (τ := τ) .tc main_c_0) = constantI S_ 32 0#32 := after_nullary writesAre 15 rfl V (by decide)
theorem at_v14 : after (ops (F := F)) V (Proc.devRef (τ := τ) .tc main_v14) = tabZero := by
  rw [after_unary writesAre 16 rfl V (by decide) (by decide), at_c_0]; rfl
theorem at_v15 : after (ops (F := F)) V (Proc.devRef (τ := τ) .tc main_v15) = cmpi .slt tab tabZero := by
  rw [after_binary writesAre 17 rfl V (by decide) (by decide) (by decide), at_c, at_v14]
theorem at_c_1 : after (ops (F := F)) V (Proc.devRef (τ := τ) .tc main_c_1) = constantI S_ 32 5#32 := after_nullary writesAre 18 rfl V (by decide)
theorem at_v16 : after (ops (F := F)) V (Proc.devRef (τ := τ) .tc main_v16) = tabFive := by
  rw [after_unary writesAre 19 rfl V (by decide) (by decide), at_c_1]; rfl
theorem at_v17 : after (ops (F := F)) V (Proc.devRef (τ := τ) .tc main_v17) = addi tab tabFive := by
  rw [after_binary writesAre 20 rfl V (by decide) (by decide) (by decide), at_c, at_v16]
theorem at_v18 : after (ops (F := F)) V (Proc.devRef (τ := τ) .tc main_v18) = tabN := by
  rw [after_ternary writesAre 21 rfl V (by decide) (by decide) (by decide) (by decide), at_v15, at_v17, at_c]; rfl
theorem at_v19 : after (ops (F := F)) V (Proc.devRef (τ := τ) .tc main_v19) = tabIdx := by
  rw [after_unary writesAre 22 rfl V (by decide) (by decide), at_v18]; rfl

/-! ## The distances, the costs, their least and the mean -/

theorem at_v20 : after (ops (F := F)) V (Proc.devRef (τ := τ) .tc main_v20) = gath (coords (V (Proc.devRef (τ := τ) .tc main_arg0)) (V (Proc.devRef (τ := τ) .tc main_arg2))) := by
  rw [after_binary writesAre 23 rfl V (by decide) (by decide) (by decide), at_v13, at_v19]; rfl
theorem at_v21 : after (ops (F := F)) V (Proc.devRef (τ := τ) .tc main_v21) = broadcastInDim S131072x1x5x2 ![0, 2, 3] bcast_S131072x5x2_S131072x1x5x2_0_2_3 (coords (V (Proc.devRef (τ := τ) .tc main_arg1)) (V (Proc.devRef (τ := τ) .tc main_arg3))) := by
  rw [after_unary writesAre 24 rfl V (by decide) (by decide), at_v6]
theorem at_v22 : after (ops (F := F)) V (Proc.devRef (τ := τ) .tc main_v22) = tgt (coords (V (Proc.devRef (τ := τ) .tc main_arg1)) (V (Proc.devRef (τ := τ) .tc main_arg3))) := by
  rw [after_unary writesAre 25 rfl V (by decide) (by decide), at_v21]; rfl
theorem at_v23 : after (ops (F := F)) V (Proc.devRef (τ := τ) .tc main_v23) = dif (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 26 rfl V (by decide) (by decide) (by decide), at_v22, at_v20]; rfl
theorem at_v24 : after (ops (F := F)) V (Proc.devRef (τ := τ) .tc main_v24) = sqd (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 27 rfl V (by decide) (by decide) (by decide), at_v23]; rfl
theorem at_cst : after (ops (F := F)) V (Proc.devRef (τ := τ) .tc main_cst) = constant S_ .f32 0x00000000#32 := after_nullary writesAre 28 rfl V (by decide)
theorem at_v25 : after (ops (F := F)) V (Proc.devRef (τ := τ) .tc main_v25) = dst2 (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 29 rfl V (by decide) (by decide) (by decide), at_v24, at_cst]; rfl
theorem at_v26 : after (ops (F := F)) V (Proc.devRef (τ := τ) .tc main_v26) = dsts (coords (V (Proc.devRef (τ := τ) .tc main_arg1)) (V (Proc.devRef (τ := τ) .tc main_arg3))) (coords (V (Proc.devRef (τ := τ) .tc main_arg0)) (V (Proc.devRef (τ := τ) .tc main_arg2))) := by
  rw [after_unary writesAre 30 rfl V (by decide) (by decide), at_v25]; rfl
theorem at_cst_2 : after (ops (F := F)) V (Proc.devRef (τ := τ) .tc main_cst_2) = constant S_ .f32 0x00000000#32 := after_nullary writesAre 31 rfl V (by decide)
theorem at_v27 : after (ops (F := F)) V (Proc.devRef (τ := τ) .tc main_v27) = costs (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 32 rfl V (by decide) (by decide) (by decide), at_v26, at_cst_2]; rfl
theorem at_cst_3 : after (ops (F := F)) V (Proc.devRef (τ := τ) .tc main_cst_3) = constant S_ .f32 0x40A00000#32 := after_nullary writesAre 33 rfl V (by decide)
theorem at_v28 : after (ops (F := F)) V (Proc.devRef (τ := τ) .tc main_v28) = fives := by
  rw [after_unary writesAre 34 rfl V (by decide) (by decide), at_cst_3]; rfl
theorem at_v29 : after (ops (F := F)) V (Proc.devRef (τ := τ) .tc main_v29) = mcosts (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 35 rfl V (by decide) (by decide) (by decide), at_v27, at_v28]; rfl
theorem at_cst_4 : after (ops (F := F)) V (Proc.devRef (τ := τ) .tc main_cst_4) = constant S_ .f32 0x7F800000#32 := after_nullary writesAre 36 rfl V (by decide)
theorem at_v30 : after (ops (F := F)) V (Proc.devRef (τ := τ) .tc main_v30) = best (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 37 rfl V (by decide) (by decide) (by decide), at_v29, at_cst_4]; rfl
theorem at_cst_5 : after (ops (F := F)) V (Proc.devRef (τ := τ) .tc main_cst_5) = constant S_ .f32 0x00000000#32 := after_nullary writesAre 38 rfl V (by decide)
theorem at_v31 : after (ops (F := F)) V (Proc.devRef (τ := τ) .tc main_v31) = total (coords (V (Proc.devRef (τ := τ) .tc main_arg1)) (V (Proc.devRef (τ := τ) .tc main_arg3))) (coords (V (Proc.devRef (τ := τ) .tc main_arg0)) (V (Proc.devRef (τ := τ) .tc main_arg2))) := by
  rw [after_binary writesAre 39 rfl V (by decide) (by decide) (by decide), at_v30, at_cst_5]; rfl
theorem at_cst_6 : after (ops (F := F)) V (Proc.devRef (τ := τ) .tc main_cst_6) = constant S_ .f32 0x48000000#32 := after_nullary writesAre 40 rfl V (by decide)

/-- The result buffer after the whole line: the composed term of the four arguments. -/
theorem at_v32 : after (ops (F := F)) V (Proc.devRef (τ := τ) .tc main_v32) = refTerm (V (Proc.devRef (τ := τ) .tc main_arg0)) (V (Proc.devRef (τ := τ) .tc main_arg1)) (V (Proc.devRef (τ := τ) .tc main_arg2)) (V (Proc.devRef (τ := τ) .tc main_arg3)) := by
  rw [after_binary writesAre 41 rfl V (by decide) (by decide) (by decide), at_v31, at_cst_6]; rfl

end Fold

/-- On every device, for any float values, from any memory with zero counters: every weakly fair execution of @main
    terminates with the result at `refTerm` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v32).trans (at_v32 (launchContents m c)),
      (h c main_arg0).trans (at_arg0 (launchContents m c)),
      (h c main_arg1).trans (at_arg1 (launchContents m c)),
      (h c main_arg2).trans (at_arg2 (launchContents m c)),
      (h c main_arg3).trans (at_arg3 (launchContents m c))⟩)
    (run_seq scopedRefs_eq scopedSems_eq defs main (fun _ => ops) main_eq (fun _ => ops_sub) m ρ)

end Cert.ReferenceIdeal.Hand

end
-- ==== Proof.RefTable.lean ====
import proofs.«168670_j16604343566366_2_alg».proof.Proof.Gen.ReferenceIdeal
import proofs.«168670_j16604343566366_2_alg».proof.Proof.Spec

/-!
# The program's table of permutations is the specification's

The program holds the 120 permutations of five sources as 600 words in row-major order and normalises each as an
index (a word below zero has 5 added). Read as a start index of the gather — signed, clamped into 0 … 4 — the
normalised word at row p, column k is `Cert.Spec.permTab p k`. The words are literals: one finite check.
-/

namespace Cert.ReferenceIdeal.Hand

open Cert.ReferenceIdeal Cert.ReferenceIdeal.Gen Idealize.ShloMosaic

/-- A table word after index normalisation: below zero, 5 is added. -/
def normWord (w : BitVec 32) : BitVec 32 := Scalar.select (IntOp.cmpi .slt w 0#32) (IntOp.addi w 5#32) w

/-- The normalised word at row p, column k of the table, read signed and clamped into 0 … 4, is the specification's
    permutation p at k. -/
theorem table_fact : ∀ p : Fin 120, ∀ k : Fin 5,
    min (normWord (lit0t (p.val * 5 + k.val))).toInt.toNat 4 = (Cert.Spec.permTab p k).val := by
  decide +kernel

end Cert.ReferenceIdeal.Hand
-- ==== Proof.LibGatherRow.lean ====
import Idealize.ShloMosaic.PureOps.Ideal
import Idealize.ShloMosaic.Lib.ValueIdx

/-!
# A gather along the second axis of a rank-3 array by a rank-2 table of indices, read at an index

`x[:, idx]` of an array `x : [B, N, D]` at an integer table `idx : [E, K]` lowers to a gather whose start indices are
printed `[E, K, 1]` (the index vector on the last axis), whose slices are `[B, 1, D]` with the second axis collapsed,
and whose result is `[B, E, K, D]`: the result's entry `(b, e, k, d)` is `x` at `(b, r, d)`, where `r` is the start
index `idx[e, k, 0]` read as a signed integer and clamped into `[0, N − 1]`.
-/

noncomputable section

namespace Cert.Lib.GatherRow

open Idealize.ShloMosaic Idealize.ShloMosaic.ValueIdx

variable {α : Type}

/-- The dimension numbers of `x[:, idx]` for an operand `[B, N, D]`, start indices `[E, K, 1]` and result
    `[B, E, K, D]`. -/
abbrev rowDims (B N D E K : Nat)
    (wf : GatherDims.WF ⟨3, ![B, N, D]⟩ ⟨3, ![E, K, 1]⟩ ⟨4, ![B, E, K, D]⟩ [0, 3] [1] [] [1] [] 2 ![B, 1, D]) :
    GatherDims ⟨3, ![B, N, D]⟩ ⟨3, ![E, K, 1]⟩ ⟨4, ![B, E, K, D]⟩ where
  offsetDims := [0, 3]
  collapsedSliceDims := [1]
  operandBatchingDims := []
  startIndicesBatchingDims := []
  startIndexMap := [1]
  indexVectorDim := 2
  sliceSizes := ![B, 1, D]
  wf := wf

section
variable {B N D E K w : Nat}
  (wf : GatherDims.WF ⟨3, ![B, N, D]⟩ ⟨3, ![E, K, 1]⟩ ⟨4, ![B, E, K, D]⟩ [0, 3] [1] [] [1] [] 2 ![B, 1, D])
  (idx : IVec ⟨3, ![E, K, 1]⟩ w) (b : Fin B) (e : Fin E) (k : Fin K) (d : Fin D)

/-- On the gathered axis the operand coordinate is the clamped start index: no batch and no offset part. -/
theorem row_coord1 :
    (rowDims B N D E K wf).start (ix4 b e k d) idx (1 : Fin 3) + (rowDims B N D E K wf).batchCoord (ix4 b e k d) (1 : Fin 3)
      + (rowDims B N D E K wf).offCoord (ix4 b e k d) (1 : Fin 3) = min (idx (ix3 e k (0 : Fin 1))).toInt.toNat (N - 1) := by
  rw [GatherDims.batchCoord_eq_zero _ _ _ List.not_mem_nil, Nat.add_zero,
    GatherDims.offCoord_eq_zero _ _ _ (fun hm => ((GatherDims.mem_sKept _ _).mp hm).1 (List.mem_singleton.mpr rfl)),
    Nat.add_zero]
  unfold GatherDims.start
  rw [dif_pos (show (1 : Fin 3) ∈ (rowDims B N D E K wf).startIndexMap from List.mem_singleton.mpr rfl)]
  have hsi : (rowDims B N D E K wf).siIdx (ix4 b e k d) ⟨List.idxOf (1 : Fin 3) (rowDims B N D E K wf).startIndexMap,
      List.idxOf_lt_length_iff.2 (List.mem_singleton.mpr rfl)⟩ = ix3 e k (0 : Fin 1) := by
    funext a; refine Fin.ext ?_
    match a with
    | ⟨0, _⟩ => rfl
    | ⟨1, _⟩ => rfl
    | ⟨2, _⟩ => rfl
  rw [hsi]
  rfl

/-- On an axis taken whole the operand coordinate is the result's coordinate on that axis: the start is zero. -/
theorem row_coord_kept (a : Fin 3) (ha : a ∉ [(1 : Fin 3)]) (v : Nat)
    (hv : (rowDims B N D E K wf).offCoord (ix4 b e k d) a = v) :
    (rowDims B N D E K wf).start (ix4 b e k d) idx a + (rowDims B N D E K wf).batchCoord (ix4 b e k d) a
      + (rowDims B N D E K wf).offCoord (ix4 b e k d) a = v := by
  rw [GatherDims.batchCoord_eq_zero _ _ _ List.not_mem_nil, Nat.add_zero]
  have hs : (rowDims B N D E K wf).start (ix4 b e k d) idx a = 0 := by
    unfold GatherDims.start
    rw [dif_neg ha]
  rw [hs, hv, Nat.zero_add]

theorem row_off0 : (rowDims B N D E K wf).offCoord (ix4 b e k d) (0 : Fin 3) = b.val := by
  unfold GatherDims.offCoord
  rw [dif_pos ((GatherDims.mem_sKept _ _).2 ⟨(show (0 : Fin 3) ∉ [(1 : Fin 3)] by decide), List.not_mem_nil⟩)]
  rfl

theorem row_off2 : (rowDims B N D E K wf).offCoord (ix4 b e k d) (2 : Fin 3) = d.val := by
  unfold GatherDims.offCoord
  rw [dif_pos ((GatherDims.mem_sKept _ _).2 ⟨(show (2 : Fin 3) ∉ [(1 : Fin 3)] by decide), List.not_mem_nil⟩)]
  rfl

end

/-- The gather read at `(b, e, k, d)`: the operand at `(b, r, d)`, `r` the start index `idx[e, k, 0]` read signed and
    clamped into `[0, N − 1]`. -/
theorem gather_row_apply {B N D E K w : Nat} (hN : 0 < N)
    (wf : GatherDims.WF ⟨3, ![B, N, D]⟩ ⟨3, ![E, K, 1]⟩ ⟨4, ![B, E, K, D]⟩ [0, 3] [1] [] [1] [] 2 ![B, 1, D])
    (x : (⟨3, ![B, N, D]⟩ : Shape).Idx → α) (idx : IVec ⟨3, ![E, K, 1]⟩ w)
    (b : Fin B) (e : Fin E) (k : Fin K) (d : Fin D) :
    Host.gather (rowDims B N D E K wf) x idx (ix4 b e k d)
      = x (ix3 b ⟨min (idx (ix3 e k (0 : Fin 1))).toInt.toNat (N - 1), by omega⟩ d) := by
  unfold Host.gather
  congr 1
  funext a
  refine Fin.ext ?_
  match a with
  | ⟨0, _⟩ => exact row_coord_kept wf idx b e k d 0 (by decide) _ (row_off0 wf b e k d)
  | ⟨1, _⟩ => exact row_coord1 wf idx b e k d
  | ⟨2, _⟩ => exact row_coord_kept wf idx b e k d 2 (by decide) _ (row_off2 wf b e k d)

end Cert.Lib.GatherRow

end
-- ==== Proof.RefReads.lean ====
import proofs.«168670_j16604343566366_2_alg».proof.Proof.RefStages
import proofs.«168670_j16604343566366_2_alg».proof.Proof.RefTable
import proofs.«168670_j16604343566366_2_alg».proof.Proof.LibGatherRow
import proofs.«168670_j16604343566366_2_alg».proof.Proof.Spec
import Idealize.ShloMosaic.Lib.ValueIdx
import Idealize.ShloMosaic.Lib.IdealHost
import Idealize.ShloMosaic.Lib.Pipeline.Value
import Idealize.ShloMosaic.PureOps.Ideal.Laws

/-!
# The reference's stages read at an index, on the extended reals

Each stage of `RefStages`, at the ideal values, read at one index given by its coordinates: the coordinates of a
source are (cos · distance, sin · distance) of its polar form; the gathered prediction at (n, p, m, d) is the prediction
`Cert.Spec.permTab p m` of sample n; a sum over one axis is the sum over that axis's coordinates; the least over the
table's rows is the infimum over `Fin 120`. Every step is a read at one symbolic index.
-/

noncomputable section

open scoped BigOperators

namespace Cert.ReferenceIdeal.Hand

open Cert.ReferenceIdeal Cert.ReferenceIdeal.Gen Idealize.ShloMosaic Idealize.ShloMosaic.ValueIdx

/-! ## Plane coordinates from the polar form -/

section Coords

variable (ang dst : FVec Ideal S131072x5 .f32) (n : Fin 131072) (k : Fin 5)

theorem polX_apply : polX (F := Ideal) ang dst (ix2 n k) = Ideal.cos (ang (ix2 n k)) * dst (ix2 n k) := rfl

theorem polY_apply : polY (F := Ideal) ang dst (ix2 n k) = Ideal.sin (ang (ix2 n k)) * dst (ix2 n k) := rfl

/-- A column array [131072, 5] as [131072, 5, 1], read at (n, k, 0). -/
theorem col_apply (x : FVec Ideal S131072x5 .f32) :
    broadcastInDim S131072x5x1 ![0, 1] bcast_S131072x5_S131072x5x1_0_1 x (ix3 n k (0 : Fin 1)) = x (ix2 n k) :=
  broadcastInDim_apply _ _ x (ix3 n k (0 : Fin 1)) (ix2 n k) (fun a => by
    match a with
    | ⟨0, _⟩ => rfl
    | ⟨1, _⟩ => rfl)

/-- The first coordinate of source k of sample n: cos · distance. -/
theorem coords_apply0 : coords (F := Ideal) ang dst (ix3 n k (0 : Fin 2)) = Ideal.cos (ang (ix2 n k)) * dst (ix2 n k) := by
  unfold coords
  rw [concatenate_pair_apply_left (s₁ := S131072x5x1) (s₂ := S131072x5x1) (2 : Fin 3) _ _ concatenates_S131072x5x1_S131072x5x1_S131072x5x2_d2
    (ix3 n k (0 : Fin 2)) rfl (ix3 n k (0 : Fin 1)) (fun b => by
      match b with
      | ⟨0, _⟩ => rfl
      | ⟨1, _⟩ => rfl
      | ⟨2, _⟩ => rfl)]
  rw [col_apply, polX_apply]

/-- The second coordinate: sin · distance. -/
theorem coords_apply1 : coords (F := Ideal) ang dst (ix3 n k (1 : Fin 2)) = Ideal.sin (ang (ix2 n k)) * dst (ix2 n k) := by
  unfold coords
  rw [concatenate_pair_apply_right (s₁ := S131072x5x1) (s₂ := S131072x5x1) (2 : Fin 3) _ _ concatenates_S131072x5x1_S131072x5x1_S131072x5x2_d2
    (ix3 n k (1 : Fin 2)) rfl rfl (ix3 n k (0 : Fin 1)) (fun b hb => by
      match b, hb with
      | ⟨0, _⟩, _ => rfl
      | ⟨1, _⟩, _ => rfl
      | ⟨2, _⟩, hb => exact absurd rfl hb) rfl]
  rw [col_apply, polY_apply]

end Coords

/-! ## The table as start indices -/

section Table

variable (p : Fin 120) (k : Fin 5)

/-- The table's word at row p, column k: the literal at row-major position 5p + k. -/
theorem tab_apply : tab (ix2 p k) = lit0t (p.val * 5 + k.val) :=
  congrArg lit0t (Shape.rowMajor_val_two (ix2 p k))

theorem tabN_apply : tabN (ix2 p k) = normWord (lit0t (p.val * 5 + k.val)) := by
  show Scalar.select (IntOp.cmpi .slt (tab (ix2 p k)) 0#32) (IntOp.addi (tab (ix2 p k)) 5#32) (tab (ix2 p k)) = _
  rw [tab_apply]
  rfl

theorem tabIdx_apply : tabIdx (ix3 p k (0 : Fin 1)) = normWord (lit0t (p.val * 5 + k.val)) := by
  unfold tabIdx
  rw [broadcastInDim_apply _ _ tabN (ix3 p k (0 : Fin 1)) (ix2 p k) (fun a => by
    match a with
    | ⟨0, _⟩ => rfl
    | ⟨1, _⟩ => rfl)]
  exact tabN_apply p k

end Table

/-! ## The gathered predictions and the repeated targets -/

section Pairs

variable (tc pc : FVec Ideal S131072x5x2 .f32) (n : Fin 131072) (p : Fin 120) (m : Fin 5) (d : Fin 2)

/-- The gathered prediction at (n, p, m, d): the prediction that permutation p assigns to target m. -/
theorem gath_apply : gath (F := Ideal) pc (ix4 n p m d) = pc (ix3 n (Cert.Spec.permTab p m) d) := by
  show Host.gather (Cert.Lib.GatherRow.rowDims 131072 5 2 120 5
      gather_S131072x5x2_S120x5x1_S131072x120x5x2_03_1_n_n_1_2_13107212_wf) pc tabIdx (ix4 n p m d) = _
  rw [Cert.Lib.GatherRow.gather_row_apply (by decide)]
  refine congrArg (fun r => pc (ix3 n r d)) (Fin.ext ?_)
  show min (tabIdx (ix3 p m (0 : Fin 1))).toInt.toNat (5 - 1) = _
  rw [tabIdx_apply]
  exact table_fact p m

/-- The repeated target at (n, p, m, d): target m of sample n, whatever the row p. -/
theorem tgt_apply : tgt (F := Ideal) tc (ix4 n p m d) = tc (ix3 n m d) := by
  unfold tgt
  rw [broadcastInDim_apply _ _ _ (ix4 n p m d) (ix4 n (0 : Fin 1) m d) (fun a => by
    match a with
    | ⟨0, _⟩ => rfl
    | ⟨1, _⟩ => rfl
    | ⟨2, _⟩ => rfl
    | ⟨3, _⟩ => rfl)]
  exact broadcastInDim_apply _ _ tc (ix4 n (0 : Fin 1) m d) (ix3 n m d) (fun a => by
    match a with
    | ⟨0, _⟩ => rfl
    | ⟨1, _⟩ => rfl
    | ⟨2, _⟩ => rfl)

theorem sqd_apply : sqd (F := Ideal) tc pc (ix4 n p m d)
    = (tc (ix3 n m d) - pc (ix3 n (Cert.Spec.permTab p m) d)) * (tc (ix3 n m d) - pc (ix3 n (Cert.Spec.permTab p m) d)) := by
  show (tgt (F := Ideal) tc (ix4 n p m d) - gath (F := Ideal) pc (ix4 n p m d))
      * (tgt (F := Ideal) tc (ix4 n p m d) - gath (F := Ideal) pc (ix4 n p m d)) = _
  rw [tgt_apply, gath_apply]

end Pairs

/-! ## The sums, the least and the mean -/

/-- The float word of zero is the extended real zero; a sum from it is the sum. -/
theorem zero_word_add (x : EReal) : Ideal.ofBits .f32 0x00000000#32 + x = x := by
  rw [Ideal.ofBits_zero_f32, zero_add]

/-- The float word `0x7F800000` is the extended real ⊤. -/
theorem top_word : Ideal.ofBits .f32 0x7F800000#32 = ⊤ := by simp [Ideal.ofBits, Ideal.ieee]

/-- A fold of `min` from ⊤ is the infimum. -/
theorem fold_min_top {ι : Type} (s : Finset ι) (g : ι → EReal) : s.fold min ⊤ g = s.inf g := by
  classical
  induction s using Finset.induction_on with
  | empty => rfl
  | insert a s ha ih => rw [Finset.fold_insert ha, Finset.inf_insert, ih]

/-- The host's square root at an index is the extended reals' square root of the element. -/
theorem hostSqrt_apply {s : Shape} {φ : FTy} (x : FVec Ideal s φ) (i : s.Idx) : Host.sqrt x i = Ideal.sqrt (x i) := rfl

/-- A rank-1 index set is its coordinate's range, so a sum over it is the sum over the coordinate. -/
theorem sum_idx1 {M : Type*} [AddCommMonoid M] {n0 : Nat} (f : (⟨1, ![n0]⟩ : Shape).Idx → M) :
    ∑ i, f i = ∑ a : Fin n0, f (ix1 a) := by
  let e : (⟨1, ![n0]⟩ : Shape).Idx ≃ Fin n0 :=
    { toFun := fun i => i 0, invFun := fun a => ix1 a, left_inv := fun i => (eq_ix1 i).symm, right_inv := fun _ => rfl }
  exact (Equiv.sum_comp e.symm f).symm

section Sums

variable (tc pc : FVec Ideal S131072x5x2 .f32)

theorem lift_d3 (h : S131072x120x5x2.Reduces [3] S131072x120x5) (n : Fin 131072) (p : Fin 120) (m : Fin 5) (d : Fin 2) :
    h.lift (ix3 n p m) d = ix4 n p m d := by
  funext c
  refine Fin.ext ?_
  match c with
  | ⟨0, _⟩ => rfl
  | ⟨1, _⟩ => rfl
  | ⟨2, _⟩ => rfl
  | ⟨3, _⟩ => rfl

theorem lift_d2 (h : S131072x120x5.Reduces [2] S131072x120) (n : Fin 131072) (p : Fin 120) (m : Fin 5) :
    h.lift (ix2 n p) m = ix3 n p m := by
  funext c
  refine Fin.ext ?_
  match c with
  | ⟨0, _⟩ => rfl
  | ⟨1, _⟩ => rfl
  | ⟨2, _⟩ => rfl

theorem lift_d1 (h : S131072x120.Reduces [1] S131072) (n : Fin 131072) (p : Fin 120) :
    h.lift (ix1 n) p = ix2 n p := by
  funext c
  refine Fin.ext ?_
  match c with
  | ⟨0, _⟩ => rfl
  | ⟨1, _⟩ => rfl

/-- The squared distance at (n, p, m): the two squares, summed. -/
theorem dst2_apply (n : Fin 131072) (p : Fin 120) (m : Fin 5) :
    dst2 (F := Ideal) tc pc (ix3 n p m)
      = sqd (F := Ideal) tc pc (ix4 n p m (0 : Fin 2)) + sqd (F := Ideal) tc pc (ix4 n p m (1 : Fin 2)) := by
  have h : S131072x120x5x2.Reduces [3] S131072x120x5 := by decide
  refine (Ideal.hostReduceAdd_single reducesTo_S131072x120x5x2_S131072x120x5_d3 h (sqd (F := Ideal) tc pc)
    (Ideal.ofBits .f32 0x00000000#32) (ix3 n p m)).trans ?_
  rw [zero_word_add]
  show ∑ d : Fin 2, sqd (F := Ideal) tc pc (h.lift (ix3 n p m) d) = _
  rw [Fin.sum_univ_two, lift_d3, lift_d3]

theorem dsts_apply (n : Fin 131072) (p : Fin 120) (m : Fin 5) :
    dsts (F := Ideal) tc pc (ix3 n p m) = Ideal.sqrt (dst2 (F := Ideal) tc pc (ix3 n p m)) :=
  hostSqrt_apply (dst2 (F := Ideal) tc pc) (ix3 n p m)

/-- The cost of row p for sample n: the distances summed over the targets. -/
theorem costs_apply (n : Fin 131072) (p : Fin 120) :
    costs (F := Ideal) tc pc (ix2 n p) = ∑ m : Fin 5, dsts (F := Ideal) tc pc (ix3 n p m) := by
  have h : S131072x120x5.Reduces [2] S131072x120 := by decide
  refine (Ideal.hostReduceAdd_single reducesTo_S131072x120x5_S131072x120_d2 h (dsts (F := Ideal) tc pc)
    (Ideal.ofBits .f32 0x00000000#32) (ix2 n p)).trans ?_
  rw [zero_word_add]
  show ∑ m : Fin 5, dsts (F := Ideal) tc pc (h.lift (ix2 n p) m) = _
  exact Finset.sum_congr rfl fun m _ => by rw [lift_d2]

theorem mcosts_apply (n : Fin 131072) (p : Fin 120) :
    mcosts (F := Ideal) tc pc (ix2 n p) = Ideal.div (costs (F := Ideal) tc pc (ix2 n p)) (Ideal.ofBits .f32 0x40A00000#32) :=
  hostDivf_apply (costs (F := Ideal) tc pc) (fives (F := Ideal)) (ix2 n p)

/-- The least mean cost of sample n: the infimum over the table's rows. -/
theorem best_apply (n : Fin 131072) :
    best (F := Ideal) tc pc (ix1 n) = Finset.univ.inf fun p : Fin 120 => mcosts (F := Ideal) tc pc (ix2 n p) := by
  have h : S131072x120.Reduces [1] S131072 := by decide
  refine (Host.reduce_eq_fold_single (FloatOps.minimumf (F := Ideal) (φ := .f32)) (mcosts (F := Ideal) tc pc)
    (constant (F := Ideal) S_ .f32 0x7F800000#32) reducesTo_S131072x120_S131072_d1 h h_S_ (ix1 n)).trans ?_
  show (Finset.univ : Finset (Fin 120)).fold min (Ideal.ofBits .f32 0x7F800000#32)
      (fun p : Fin 120 => mcosts (F := Ideal) tc pc (h.lift (ix1 n) p)) = _
  rw [top_word, fold_min_top]
  exact Finset.inf_congr rfl fun p _ => by rw [lift_d1]

/-- The total over the samples. -/
theorem total_apply (j : S_.Idx) :
    total (F := Ideal) tc pc j = ∑ n : Fin 131072, best (F := Ideal) tc pc (ix1 n) := by
  refine (Ideal.hostReduceAdd_total reducesTo_S131072_S_d0 (fun b => b.elim0) (best (F := Ideal) tc pc)
    (Ideal.ofBits .f32 0x00000000#32) j).trans ?_
  rw [zero_word_add]
  exact sum_idx1 (n0 := 131072) (best (F := Ideal) tc pc)

end Sums

end Cert.ReferenceIdeal.Hand

end
-- ==== Proof.RefHand.lean ====
import proofs.«168670_j16604343566366_2_alg».proof.Proof.RefRun
import proofs.«168670_j16604343566366_2_alg».proof.Proof.RefReads
import proofs.«168670_j16604343566366_2_alg».proof.Proof.Spec

/-!
# The reference program's run and value

Every weakly fair execution of the reference's @main terminates with its result at the specification's value
`Cert.Spec.refVal` of the four argument arrays, and the arguments unchanged: the run leaves the composed term
`refTerm` of the arguments at the result, and read index by index on the extended reals that term is the mean over the
samples of the least, over the 120 permutations, of the mean distance between each target and the prediction assigned
to it.
-/

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The distance stage at (n, p, m) is the specification's distance between target m and the prediction that
    permutation p assigns to it. -/
theorem dsts_eq_dist (x0 x1 x2 x3 : FVec Ideal S131072x5 .f32) (n : Fin 131072) (p : Fin 120) (m : Fin 5) :
    dsts (F := Ideal) (coords (F := Ideal) x1 x3) (coords (F := Ideal) x0 x2) (ix3 n p m)
      = Cert.Spec.dist (Cert.Spec.arr x0) (Cert.Spec.arr x1) (Cert.Spec.arr x2) (Cert.Spec.arr x3) n m (Cert.Spec.permTab p m) := by
  rw [dsts_apply, dst2_apply, sqd_apply, sqd_apply, coords_apply0, coords_apply0, coords_apply1, coords_apply1]
  rfl

/-- The reference's composed term is the specification's value, at its one index. -/
theorem refTerm_eq (x0 x1 x2 x3 : FVec Ideal S131072x5 .f32) :
    refTerm (F := Ideal) x0 x1 x2 x3
      = fun _ => Cert.Spec.refVal (Cert.Spec.arr x0) (Cert.Spec.arr x1) (Cert.Spec.arr x2) (Cert.Spec.arr x3) := by
  funext j
  show Ideal.div (total (F := Ideal) (coords (F := Ideal) x1 x3) (coords (F := Ideal) x0 x2) j) (Ideal.ofBits .f32 0x48000000#32) = _
  rw [total_apply]
  unfold Cert.Spec.refVal Cert.Spec.cost
  refine congrArg (fun s => Ideal.div s (Ideal.ofBits .f32 0x48000000#32)) (Finset.sum_congr rfl fun n _ => ?_)
  rw [best_apply]
  refine Finset.inf_congr rfl fun p _ => ?_
  rw [mcosts_apply, costs_apply]
  refine congrArg (fun s => Ideal.div s (Ideal.ofBits .f32 0x40A00000#32)) (Finset.sum_congr rfl fun m _ => ?_)
  exact dsts_eq_dist x0 x1 x2 x3 n p m

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v32)
          = (fun _ => Cert.Spec.refVal (Cert.Spec.arr (m ((c.tc : Thread _ _).loc Cert.ReferenceIdeal.main_arg0))) (Cert.Spec.arr (m ((c.tc : Thread _ _).loc Cert.ReferenceIdeal.main_arg1))) (Cert.Spec.arr (m ((c.tc : Thread _ _).loc Cert.ReferenceIdeal.main_arg2))) (Cert.Spec.arr (m ((c.tc : Thread _ _).loc Cert.ReferenceIdeal.main_arg3))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3)) :=
  (θ_run (Cert.ReferenceIdeal.defs (F := Ideal)) _ _).mono
    (fun _ h c => ⟨(h c).1.trans (refTerm_eq _ _ _ _), (h c).2⟩)
    (run_term (F := Ideal) m ρ)

end Cert.ReferenceIdeal.Hand

end
-- ==== Proof.HeldKarp.lean ====
/-
  The subset recurrence computes the least assignment cost: hkDP D is the infimum of cost D σ over the 120 permutations σ.

  Adding a fixed term is monotone on the extended reals, so min a b + c = min (a + c) (b + c). Pushing every addition of
  the recurrence inside its minima turns d_31 into a minimum of 120 sums D 0 k0 + D 1 k1 + D 2 k2 + D 3 k3 + D 4 k4, one
  for each order (k0, …, k4) in which the five predictions can be added to the set: these orders are the 120 permutations.
  The infimum over the table unfolds row by row to the minimum of the same 120 sums, listed in another order; minimum is
  associative and commutative.
-/
import Mathlib
import proofs.«168670_j16604343566366_2_alg».proof.Proof.Spec

noncomputable section

open scoped BigOperators

namespace Cert.Spec

/-- An infimum over Fin (n+1) is the first value met with the infimum over the rest. -/
theorem HeldKarp.inf_univ_succ' {α : Type*} [SemilatticeInf α] [OrderTop α] {n : ℕ} (f : Fin (n + 1) → α) :
    Finset.univ.inf f = f 0 ⊓ Finset.univ.inf (fun i : Fin n => f i.succ) := by
  rw [Fin.univ_succ, Finset.inf_cons, Finset.inf_map]; rfl

set_option maxHeartbeats 1000000 in
theorem hkDP_eq_inf (D : Fin 5 → Fin 5 → EReal) :
    Cert.Spec.hkDP D = Finset.univ.inf (fun p : Fin 120 => Cert.Spec.cost D (Cert.Spec.permTab p)) := by
  -- the right side, row by row: the minimum of the 120 sums D 0 (σ 0) + D 1 (σ 1) + D 2 (σ 2) + D 3 (σ 3) + D 4 (σ 4)
  simp only [HeldKarp.inf_univ_succ', Finset.univ_eq_empty, Finset.inf_empty, inf_top_eq, cost, Fin.sum_univ_five, permTab,
    Matrix.cons_val_zero, Matrix.cons_val_succ, Matrix.cons_val]
  -- the left side: every addition pushed inside the minima
  simp only [hkDP, ← min_add_add_right]
  -- the same 120 sums in two orders
  ac_rfl

end Cert.Spec

end
-- ==== Proof.KerRef.lean ====
/-
  For real inputs the two specified values agree: kerVal = refVal.

  With real angles and distances every dist n m k is a real number (cosine and sine of a real are real, and the square root
  is taken of a sum of two squares), so every cost is real and so is the least cost μ n of sample n — the infimum over the
  120 permutations, which the subset recurrence also computes. The three float words denote 5, 131072 and 655360, and
  division by a nonzero real is multiplication by its reciprocal. Multiplying by the positive real 1/5 is monotone, so it
  passes through the finite infimum. Hence refVal = (∑ n, μ n · (1/5)) · (1/131072) and, the 131072 samples being the two
  cells of two blocks of 32768 positions, kerVal = (∑ n, μ n) · (1/655360); the two real numbers are equal.
-/
import Mathlib
import proofs.«168670_j16604343566366_2_alg».proof.Proof.Spec
import proofs.«168670_j16604343566366_2_alg».proof.Proof.HeldKarp

noncomputable section

open scoped BigOperators

namespace Cert.Spec

open Idealize.ShloMosaic

namespace KerRef

/-- The float word 0x40A00000 denotes 5. -/
theorem ofBits_five : Ideal.ofBits .f32 0x40A00000#32 = ((5 : ℝ) : EReal) := by
  simp [Ideal.ofBits, Ideal.ieee, -EReal.coe_mul]; norm_num

/-- The float word 0x48000000 denotes 131072. -/
theorem ofBits_131072 : Ideal.ofBits .f32 0x48000000#32 = ((131072 : ℝ) : EReal) := by
  simp [Ideal.ofBits, Ideal.ieee, -EReal.coe_mul]; norm_num

/-- The float word 0x49200000 denotes 655360. -/
theorem ofBits_655360 : Ideal.ofBits .f32 0x49200000#32 = ((655360 : ℝ) : EReal) := by
  simp [Ideal.ofBits, Ideal.ieee, -EReal.coe_mul]; norm_num

/-- A finite sum of real numbers, read in the extended reals. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The distance between two points given in polar form by real numbers is a real number. -/
theorem dist1_coe (pa ta pd td : ℝ) :
    ∃ r : ℝ, dist1 (pa : EReal) (ta : EReal) (pd : EReal) (td : EReal) = (r : EReal) := by
  refine ⟨Real.sqrt ((Real.cos ta * td - Real.cos pa * pd) * (Real.cos ta * td - Real.cos pa * pd)
    + (Real.sin ta * td - Real.sin pa * pd) * (Real.sin ta * td - Real.sin pa * pd)), ?_⟩
  unfold dist1
  simp only [Ideal.cos_coe, Ideal.sin_coe, ← EReal.coe_mul, ← EReal.coe_sub, ← EReal.coe_add, Ideal.sqrt_coe]
  rw [if_neg]
  exact not_lt.mpr (add_nonneg (mul_self_nonneg _) (mul_self_nonneg _))

/-- The cost of an assignment under a real table of distances is real. -/
theorem cost_coe (D : Fin 5 → Fin 5 → EReal) (hD : ∀ m k, ∃ r : ℝ, D m k = (r : EReal)) (σ : Fin 5 → Fin 5) :
    ∃ r : ℝ, cost D σ = (r : EReal) := by
  choose R hR using hD
  refine ⟨∑ m : Fin 5, R m (σ m), ?_⟩
  unfold cost
  simp only [hR]
  exact coe_finset_sum _ _

/-- The least cost under a real table of distances is real. -/
theorem hkDP_coe (D : Fin 5 → Fin 5 → EReal) (hD : ∀ m k, ∃ r : ℝ, D m k = (r : EReal)) :
    ∃ r : ℝ, hkDP D = (r : EReal) := by
  rw [hkDP_eq_inf]
  obtain ⟨p, -, hp⟩ := Finset.exists_mem_eq_inf (Finset.univ : Finset (Fin 120)) Finset.univ_nonempty
    (fun p => cost D (permTab p))
  rw [hp]
  exact cost_coe D hD (permTab p)

/-- Multiplying by a positive real passes through a finite infimum. -/
theorem inf_mul_pos {ι : Type*} (s : Finset ι) (f : ι → EReal) (c : ℝ) (hc : 0 < c) :
    s.inf (fun p => f p * (c : EReal)) = s.inf f * (c : EReal) := by
  have hmono : Monotone (fun x : EReal => x * (c : EReal)) :=
    fun x y h => mul_le_mul_of_nonneg_right h (EReal.coe_nonneg.mpr hc.le)
  have htop : (fun x : EReal => x * (c : EReal)) ⊤ = ⊤ := EReal.top_mul_of_pos (EReal.coe_pos.mpr hc)
  exact (Finset.apply_inf_eq_inf_comp_of_linearOrder (s := s) (f := f) _ hmono htop).symm

/-- The samples split into two output cells of two blocks of 32768 positions. -/
theorem sum_blocks {M : Type*} [AddCommMonoid M] (f : Fin 131072 → M) :
    ∑ n : Fin 131072, f n
      = ∑ c : Fin 2, ((∑ j : Fin 32768, f (smp c 0 j)) + (∑ j : Fin 32768, f (smp c 1 j))) := by
  have hbij : Function.Bijective (fun x : Fin 2 × Fin 2 × Fin 32768 => smp x.1 x.2.1 x.2.2) := by
    constructor
    · rintro ⟨c, i, j⟩ ⟨c', i', j'⟩ h
      have hv := congrArg Fin.val h
      simp only [smp] at hv
      have := c.isLt; have := i.isLt; have := j.isLt; have := c'.isLt; have := i'.isLt; have := j'.isLt
      have h1 : c.val = c'.val := by omega
      have h2 : i.val = i'.val := by omega
      have h3 : j.val = j'.val := by omega
      rw [Fin.ext h1, Fin.ext h2, Fin.ext h3]
    · intro n
      have := n.isLt
      refine ⟨(⟨n.val / 65536, by omega⟩, ⟨(n.val / 32768) % 2, by omega⟩, ⟨n.val % 32768, by omega⟩), ?_⟩
      apply Fin.ext
      simp only [smp]
      omega
  rw [← Fintype.sum_bijective _ hbij (fun x => f (smp x.1 x.2.1 x.2.2)) f (fun _ => rfl)]
  rw [Fintype.sum_prod_type]
  refine Finset.sum_congr rfl (fun c _ => ?_)
  rw [Fintype.sum_prod_type, Fin.sum_univ_two]

end KerRef

open KerRef in
theorem kerVal_eq_refVal (a0 a1 a2 a3 : Fin 131072 → Fin 5 → EReal)
    (h0 : ∀ n k, ∃ r : ℝ, a0 n k = (r : EReal)) (h1 : ∀ n k, ∃ r : ℝ, a1 n k = (r : EReal))
    (h2 : ∀ n k, ∃ r : ℝ, a2 n k = (r : EReal)) (h3 : ∀ n k, ∃ r : ℝ, a3 n k = (r : EReal)) :
    Cert.Spec.kerVal a0 a1 a2 a3 = Cert.Spec.refVal a0 a1 a2 a3 := by
  -- every distance is real
  have hD : ∀ n m k, ∃ r : ℝ, dist a0 a1 a2 a3 n m k = (r : EReal) := by
    intro n m k
    obtain ⟨r0, e0⟩ := h0 n k
    obtain ⟨r1, e1⟩ := h1 n m
    obtain ⟨r2, e2⟩ := h2 n k
    obtain ⟨r3, e3⟩ := h3 n m
    unfold dist
    rw [e0, e1, e2, e3]
    exact dist1_coe r0 r1 r2 r3
  -- the least cost μ n of each sample is real
  have hμ : ∀ n, ∃ r : ℝ, hkDP (dist a0 a1 a2 a3 n) = (r : EReal) := fun n => hkDP_coe _ (hD n)
  choose μ hμ using hμ
  -- the kernel's value: the four blocks are all the samples
  have hker : kerVal a0 a1 a2 a3 = (((∑ n : Fin 131072, μ n) * (1 / 655360) : ℝ) : EReal) := by
    unfold kerVal
    rw [← sum_blocks (fun n => hkDP (dist a0 a1 a2 a3 n)), ofBits_655360,
      Ideal.div_coe (by norm_num : (655360 : ℝ) ≠ 0)]
    simp only [hμ]
    rw [coe_finset_sum, ← EReal.coe_mul]
  -- the reference's value: the division by 5 passes through the infimum
  have hinf : ∀ n : Fin 131072, Finset.univ.inf (fun p : Fin 120 =>
      Ideal.div (cost (dist a0 a1 a2 a3 n) (permTab p)) (Ideal.ofBits .f32 0x40A00000#32))
        = ((μ n * (1 / 5) : ℝ) : EReal) := by
    intro n
    rw [ofBits_five]
    simp only [Ideal.div_coe (by norm_num : (5 : ℝ) ≠ 0)]
    rw [inf_mul_pos _ _ _ (by norm_num : (0 : ℝ) < 1 / 5), ← hkDP_eq_inf, hμ, ← EReal.coe_mul]
  have href : refVal a0 a1 a2 a3 = (((∑ n : Fin 131072, μ n * (1 / 5)) * (1 / 131072) : ℝ) : EReal) := by
    unfold refVal
    simp only [hinf]
    rw [ofBits_131072, Ideal.div_coe (by norm_num : (131072 : ℝ) ≠ 0), coe_finset_sum, ← EReal.coe_mul]
  rw [hker, href, ← Finset.sum_mul]
  refine congrArg (fun x : ℝ => (x : EReal)) ?_
  ring

end Cert.Spec

end
-- ==== Proof.KFinite.lean ====
/-
  From the certificate's precondition to "every input entry is a real number".

  The precondition says that the printed predicate, at the four argument arrays, is the one-bit word 1. The predicate
  is the conjunction, over the four arrays, of "every entry x has |x| < +∞", each conjunct a reduction by `and` over
  the whole array. On the extended reals |x| = max x (−x) is below +∞ exactly when x is neither infinity, that is,
  when x is a real number.
-/
import proofs.«168670_j16604343566366_2_alg».proof.Defs
import proofs.«168670_j16604343566366_2_alg».proof.Proof.Gen.Pre_finite_inputs
import Idealize.ShloMosaic.Lib.ReduceAll
import Idealize.ShloMosaic.Lib.ValueIdx

noncomputable section

namespace Cert.KernelIdeal.Hand

open Idealize.ShloMosaic Idealize.ShloMosaic.TcCoe
open Idealize.SL Idealize.SL.Sem
open Cert.KernelIdeal

/-- The scalar shape has one index. -/
instance subsingleton_scalar_idx : Subsingleton Cert.Pre_finite_inputs.S_.Idx := ⟨fun a b => funext fun d => d.elim0⟩

/-- The word 0x7F800000 is +∞. -/
theorem ofBits_inf_f32 : Ideal.ofBits .f32 0x7F800000#32 = (⊤ : EReal) := by
  simp [Ideal.ofBits, Ideal.ieee]

/-- An extended real whose absolute value is below +∞ is a real number. -/
theorem real_of_abs_lt_top (x : EReal) (h : max x (-x) < (⊤ : EReal)) : ∃ r : ℝ, x = (r : EReal) := by
  induction x using EReal.rec with
  | bot => exact absurd h (by simp)
  | top => exact absurd h (by simp)
  | coe r => exact ⟨r, rfl⟩

/-- One conjunct of the predicate: if the reduction by `and` of "|x| < the word 0x7F800000" over an array is 1, every
    entry of the array is a real number. -/
theorem real_of_all [Cert.Pre_finite_inputs.Facts] (x : FVec Ideal Cert.Pre_finite_inputs.S131072x5 .f32)
    (e : Host.reduce IntOp.andi
          (cmpf .olt (Host.absf x)
            (broadcastInDim Cert.Pre_finite_inputs.S131072x5 ![] Cert.Pre_finite_inputs.Facts.bcast_S_S131072x5
              (constant (F := Ideal) Cert.Pre_finite_inputs.S_ .f32 0x7F800000#32)))
          (constantI Cert.Pre_finite_inputs.S_ 1 1#1)
          Cert.Pre_finite_inputs.Facts.reducesTo_S131072x5_S_d0_1 Cert.Pre_finite_inputs.Facts.h_S_ ValueIdx.ix0 = 1#1)
    (i : Cert.Pre_finite_inputs.S131072x5.Idx) : ∃ r : ℝ, x i = (r : EReal) := by
  have hi := Host.reduce_andi_all _ _ _ _ _ e i
  have h2 : Ideal.cmp .olt (max (x i) (-(x i))) (Ideal.ofBits .f32 0x7F800000#32) = 1#1 := hi
  rw [ofBits_inf_f32] at h2
  apply real_of_abs_lt_top
  by_contra hn
  simp only [Ideal.cmp, decide_eq_false hn] at h2
  exact absurd h2 (by decide)

/-- The certificate's precondition makes every entry of the four argument arrays a real number. -/
theorem real_of_pre [Cert.Pre_finite_inputs.Facts] (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all _ h0', real_of_all _ h1, real_of_all _ h2, real_of_all _ h3⟩

end Cert.KernelIdeal.Hand

end
-- ==== Proof.Claims.lean ====
/-
  The certificate's five claims, assembled.

  The two kernel programs and the reference run and leave their arguments unchanged; the idealization rewrote nothing;
  and at the extended reals the kernel program and the reference end with equal results. For the last: the kernel
  program's result is the specification's kerVal of the four argument arrays, the reference's is refVal of them, the
  precondition makes every entry of the arrays a real number, and on real entries the least assignment cost computed by
  the subset recurrence, summed in blocks and divided by 5·131072, is the average over the samples of the least
  cost/5 over the 120 permutations.
-/
import proofs.«168670_j16604343566366_2_alg».proof.Defs
import proofs.«168670_j16604343566366_2_alg».proof.Proof.KFrameBits
import proofs.«168670_j16604343566366_2_alg».proof.Proof.KFrame
import proofs.«168670_j16604343566366_2_alg».proof.Proof.KValue
import proofs.«168670_j16604343566366_2_alg».proof.Proof.RefHand
import proofs.«168670_j16604343566366_2_alg».proof.Proof.KerRef
import proofs.«168670_j16604343566366_2_alg».proof.Proof.KFinite
import proofs.«168670_j16604343566366_2_alg».proof.Proof.Gen.Kernel
import proofs.«168670_j16604343566366_2_alg».proof.Proof.Gen.KernelIdeal
import proofs.«168670_j16604343566366_2_alg».proof.Proof.Gen.ReferenceIdeal
import proofs.«168670_j16604343566366_2_alg».proof.Proof.Gen.Pre_finite_inputs

noncomputable section

open Idealize.ShloMosaic Idealize.ShloMosaic.TcCoe Idealize.SL.Sem

namespace Cert.Proof.Claims

/-- The kernel program as printed runs and leaves its arguments unchanged. -/
theorem frame_k : Cert.frame_Kernel := fun m ρ _ => Cert.Kernel.Hand.frame m ρ

/-- The kernel program read at the extended reals runs and leaves its arguments unchanged. -/
theorem frame_ki : Cert.frame_KernelIdeal := fun m ρ _ => Cert.KernelIdeal.Hand.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- At the extended reals, from memories that agree on the four arguments, the kernel program ends at kerVal of the
    arguments and the reference at refVal of them; the precondition makes the arguments' entries real, and on real
    entries the two values are equal. -/
theorem algebraic : Cert.algebraic_KernelIdeal_ReferenceIdeal := by
  intro m ρ m' ρ' hpre hagree
  refine ⟨fun c => fun _ => Cert.Spec.kerVal
      (Cert.Spec.arr (m ((c.tc : Thread Cert.KernelIdeal.nD Cert.KernelIdeal.τ).loc Cert.KernelIdeal.main_arg0)))
      (Cert.Spec.arr (m ((c.tc : Thread Cert.KernelIdeal.nD Cert.KernelIdeal.τ).loc Cert.KernelIdeal.main_arg1)))
      (Cert.Spec.arr (m ((c.tc : Thread Cert.KernelIdeal.nD Cert.KernelIdeal.τ).loc Cert.KernelIdeal.main_arg2)))
      (Cert.Spec.arr (m ((c.tc : Thread Cert.KernelIdeal.nD Cert.KernelIdeal.τ).loc Cert.KernelIdeal.main_arg3))),
    Cert.KernelIdeal.Hand.value_run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2]
  obtain ⟨h0, h1, h2, h3⟩ := Cert.KernelIdeal.Hand.real_of_pre m hpre c
  funext _
  exact (Cert.Spec.kerVal_eq_refVal _ _ _ _ (fun n k => h0 _) (fun n k => h1 _) (fun n k => h2 _) (fun n k => h3 _)).symm

end Cert.Proof.Claims

end
-- ==== Proof.lean ====
/- The proof of `Cert.Claim`. The kernel computes, for each of 131072 samples, the least cost of matching five target
   points to five predicted points (plane points given in polar form) by the subset recurrence over the 31 nonempty sets
   of predictions, sums these in four blocks and divides by 5·131072; the reference averages over the samples the least
   cost/5 over the 120 permutations. On real inputs the two agree (Proof/KerRef.lean); the programs' runs, the values
   they leave and the unchanged arguments are in Proof/KFrameBits.lean, Proof/KFrame.lean, Proof/KValue.lean and
   Proof/RefHand.lean, and the five claims are assembled in Proof/Claims.lean. -/
import proofs.«168670_j16604343566366_2_alg».proof.Defs
import proofs.«168670_j16604343566366_2_alg».proof.Proof.Claims
import proofs.«168670_j16604343566366_2_alg».proof.Proof.Gen.Kernel
import proofs.«168670_j16604343566366_2_alg».proof.Proof.Gen.KernelIdeal
import proofs.«168670_j16604343566366_2_alg».proof.Proof.Gen.ReferenceIdeal
import proofs.«168670_j16604343566366_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
